-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg8 : FVec F S128x64 .f32) (main_arg9 : FVec F S64 .f32) (main_arg10 : FVec F S64x2 .f32) (main_arg11 : FVec F S2 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x2 .f32 := Host.absf main_arg10
  let main_cst_16 : FVec F S_ .f32 := constant S_ .f32 0x7F800000#32
  let main_v45 : FVec F S64x2 .f32 := broadcastInDim S64x2 ![] bcast_S_S64x2 main_cst_16
  let main_v46 : IVec S64x2 1 := cmpf .olt main_v44 main_v45
  let main_c_17 : IVec S_ 1 := constantI S_ 1 1#1
  let main_v47 : IVec S_ 1 := (fun x v => Host.reduce IntOp.andi x v reducesTo_S64x2_S_d0_1 h_S_) main_v46 main_c_17
  let main_v48 : IVec S_ 1 := andi main_v43 main_v47
  let main_v49 : FVec F S2 .f32 := Host.absf main_arg11
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg5 : FVec F S64x64 .f32) (main_arg6 : FVec F S64 .f32) (main_arg7 : FVec F S64x64 .f32) (main_arg8 : FVec F S128x64 .f32) (main_arg9 : FVec F S64 .f32) (main_arg10 : FVec F S64x2 .f32) (main_arg11 : FVec F S2 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S128x64 .f32) (main_arg3 : FVec F S64 .f32) (main_arg4 : FVec F S128x64 .f32) (main_arg5 : FVec F S64x64 .f32) (main_arg6 : FVec F S64 .f32) (main_arg7 : FVec F S64x64 .f32) (main_arg8 : FVec F S128x64 .f32) (main_arg9 : FVec F S64 .f32) (main_arg10 : FVec F S64x2 .f32) (main_arg11 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x64 : Shape := ⟨2, ![1, 64]⟩
abbrev S50000x64 : Shape := ⟨2, ![50000, 64]⟩
abbrev S5000x128 : Shape := ⟨2, ![5000, 128]⟩
abbrev S5000x64 : Shape := ⟨2, ![5000, 64]⟩
abbrev S800000x64 : Shape := ⟨2, ![800000, 64]⟩
abbrev S1x2 : Shape := ⟨2, ![1, 2]⟩
abbrev S800000x2 : Shape := ⟨2, ![800000, 2]⟩
abbrev S8000x128 : Shape := ⟨2, ![8000, 128]⟩
abbrev S8000x2 : Shape := ⟨2, ![8000, 2]⟩
abbrev S8000x64 : Shape := ⟨2, ![8000, 64]⟩

abbrev nBuf : Space → Nat
  | .hbm => 82
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S128x64, .f32⟩
  | .hbm, ⟨9, _⟩ => ⟨S64, .f32⟩
  | .hbm, ⟨10, _⟩ => ⟨S64x2, .f32⟩
  | .hbm, ⟨11, _⟩ => ⟨S2, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S_, .f32⟩
  | .hbm, ⟨30, _⟩ => ⟨S800000, .f32⟩
  | .hbm, ⟨31, _⟩ => ⟨S_, .f32⟩
  | .hbm, ⟨32, _⟩ => ⟨S50000, .f32⟩
  | .hbm, ⟨33, _⟩ => ⟨S800000x1, .i32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000x1, .f32⟩
  | .hbm, ⟨39, _⟩ => ⟨S50000x128, .f32⟩
  | .hbm, ⟨40, _⟩ => ⟨S50000x128, .f32⟩
  | .hbm, ⟨41, _⟩ => ⟨S1x64, .f32⟩
  | .hbm, ⟨42, _⟩ => ⟨S50000x64, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x64, .f32⟩
  | .hbm, ⟨52, _⟩ => ⟨S_, .f32⟩
  | .hbm, ⟨53, _⟩ => ⟨S50000x64, .f32⟩
  | .hbm, ⟨54, _⟩ => ⟨S800000x1, .i32⟩
  | .hbm, ⟨55, _⟩ => ⟨S50000x64, .f32⟩
  | .hbm, ⟨56, _⟩ => ⟨S50000x64, .f32⟩
  | .hbm, ⟨57, _⟩ => ⟨S50000x64, .f32⟩
  | .hbm, ⟨58, _⟩ => ⟨S1x64, .f32⟩
  | .hbm, ⟨59, _⟩ => ⟨S50000x64, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x64, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S800000x64, .f32⟩
  | .hbm, ⟨78, _⟩ => ⟨S800000x128, .f32⟩
  | .hbm, ⟨79, _⟩ => ⟨S1x64, .f32⟩
  | .hbm, ⟨80, _⟩ => ⟨S1x2, .f32⟩
  | .hbm, ⟨81, _⟩ => ⟨S800000x2, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x64, .f32⟩
  | .local _ .vmem, ⟨5, _⟩ => ⟨S128x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S8000x128, .f32⟩
  | .local _ .vmem, ⟨19, _⟩ => ⟨S8000x128, .f32⟩
  | .local _ .vmem, ⟨20, _⟩ => ⟨S128x64, .f32⟩
  | .local _ .vmem, ⟨21, _⟩ => ⟨S1x64, .f32⟩
  | .local _ .vmem, ⟨22, _⟩ => ⟨S64x2, .f32⟩
  | .local _ .vmem, ⟨23, _⟩ => ⟨S1x2, .f32⟩
  | .local _ .vmem, ⟨24, _⟩ => ⟨S8000x2, .f32⟩
  | .local _ .vmem, ⟨25, _⟩ => ⟨S8000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_4 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_7 : Ref sig .tc := ⟨.hbm, 60, rfl⟩
abbrev main_v39 : Ref sig .tc := ⟨.hbm, 61, rfl⟩
abbrev main_v40 : Ref sig .tc := ⟨.hbm, 62, rfl⟩
abbrev main_c_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_9 : Ref sig .tc := ⟨.hbm, 69, rfl⟩
abbrev main_v46 : Ref sig .tc := ⟨.hbm, 70, rfl⟩
abbrev main_v47 : Ref sig .tc := ⟨.hbm, 71, rfl⟩
abbrev main_c_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S8000x2 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  concatenates_S800000x64_S800000x64_S800000x128_d1 : Shape.Concatenates [S800000x64, S800000x64] S800000x128 1
  shapeCasts_S2_S1x2 : S2.ShapeCasts S1x2
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  broadcasts_S1x64_S8000x64 : S1x64.Broadcasts S8000x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S8000x2 : S1x2.Broadcasts S8000x2
  inb_S8000x2_S8000x2_0_0 : ∀ a, (![0, 0] : Fin 2 → Nat) a + S8000x2.size a ≤ S8000x2.size a
  h_S8000x2 : 0 < S8000x2.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  dot_S8000x128_S128x64_S8000x64_1_0_0_1_n_n_wf : DotDims.WF S8000x128 S128x64 S8000x64 [1] [0] [0] [1] [] []
  dot_S8000x64_S64x2_S8000x2_1_0_0_1_n_n_wf : DotDims.WF S8000x64 S64x2 S8000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S800000x128.size a
  hwx2_0 : ∀ i : grid2.Coords, EltTy.bits .f32 = 32 ∨ (Rect.block (s := S800000x128) S8000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x2.size a ≤ S64x2.size a
  hwx2_3 : ∀ i : grid2.Coords, EltTy.bits .f32 = 32 ∨ (Rect.block (s := S64x2) S64x2.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x2.size a ≤ S1x2.size a
  hwx2_4 : ∀ i : grid2.Coords, EltTy.bits .f32 = 32 ∨ (Rect.block (s := S1x2) S1x2.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S8000x2.size a ≤ S800000x2.size a
  hwx2_5 : ∀ i : grid2.Coords, EltTy.bits .f32 = 32 ∨ (Rect.block (s := S800000x2) S8000x2.size (cc2_transform_5 i) (hinb2_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf
def dot_S8000x64_S64x2_S8000x2_1_0_0_1_n_n : DotDims S8000x64 S64x2 S8000x2 where
  lhsContracting := [1]
  rhsContracting := [0]
  lhsNonContracting := [0]
  rhsNonContracting := [1]
  lhsBatch := []
  rhsBatch := []
  wf := dot_S8000x64_S64x2_S8000x2_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v36) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v53) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S64x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S1x2.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S8000x2.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x64 : Shape := ⟨2, ![50000, 64]⟩
abbrev S1x64 : Shape := ⟨2, ![1, 64]⟩
abbrev S800000x64 : Shape := ⟨2, ![800000, 64]⟩
abbrev S800000x2 : Shape := ⟨2, ![800000, 2]⟩
abbrev S1x2 : Shape := ⟨2, ![1, 2]⟩

abbrev nBuf : Space → Nat
  | .hbm => 114
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S128x64, .f32⟩
  | .hbm, ⟨9, _⟩ => ⟨S64, .f32⟩
  | .hbm, ⟨10, _⟩ => ⟨S64x2, .f32⟩
  | .hbm, ⟨11, _⟩ => ⟨S2, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S_, .f32⟩
  | .hbm, ⟨30, _⟩ => ⟨S800000, .f32⟩
  | .hbm, ⟨31, _⟩ => ⟨S_, .f32⟩
  | .hbm, ⟨32, _⟩ => ⟨S50000, .f32⟩
  | .hbm, ⟨33, _⟩ => ⟨S800000x1, .i32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000x1, .f32⟩
  | .hbm, ⟨39, _⟩ => ⟨S50000x128, .f32⟩
  | .hbm, ⟨40, _⟩ => ⟨S50000x128, .f32⟩
  | .hbm, ⟨41, _⟩ => ⟨S50000x64, .f32⟩
  | .hbm, ⟨42, _⟩ => ⟨S1x64, .f32⟩
  | .hbm, ⟨43, _⟩ => ⟨S50000x64, .f32⟩
  | .hbm, ⟨44, _⟩ => ⟨S50000x64, .f32⟩
  | .hbm, ⟨45, _⟩ => ⟨S50000x64, .f32⟩
  | .hbm, ⟨46, _⟩ => ⟨S50000x64, .f32⟩
  | .hbm, ⟨47, _⟩ => ⟨S_, .f32⟩
  | .hbm, ⟨48, _⟩ => ⟨S50000x64, .f32⟩
  | .hbm, ⟨49, _⟩ => ⟨S50000x64, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x64, .f32⟩
  | .hbm, ⟨59, _⟩ => ⟨S_, .f32⟩
  | .hbm, ⟨60, _⟩ => ⟨S50000x64, .f32⟩
  | .hbm, ⟨61, _⟩ => ⟨S800000x1, .i32⟩
  | .hbm, ⟨62, _⟩ => ⟨S50000x64, .f32⟩
  | .hbm, ⟨63, _⟩ => ⟨S_, .f32⟩
  | .hbm, ⟨64, _⟩ => ⟨S800000, .f32⟩
  | .hbm, ⟨65, _⟩ => ⟨S_, .f32⟩
  | .hbm, ⟨66, _⟩ => ⟨S50000, .f32⟩
  | .hbm, ⟨67, _⟩ => ⟨S800000x1, .i32⟩
  | .hbm, ⟨68, _⟩ => ⟨S50000, .f32⟩
  | .hbm, ⟨69, _⟩ => ⟨S_, .f32⟩
  | .hbm, ⟨70, _⟩ => ⟨S50000, .f32⟩
  | .hbm, ⟨71, _⟩ => ⟨S50000, .f32⟩
  | .hbm, ⟨72, _⟩ => ⟨S50000x1, .f32⟩
  | .hbm, ⟨73, _⟩ => ⟨S50000x64, .f32⟩
  | .hbm, ⟨74, _⟩ => ⟨S50000x64, .f32⟩
  | .hbm, ⟨75, _⟩ => ⟨S50000x64, .f32⟩
  | .hbm, ⟨76, _⟩ => ⟨S1x64, .f32⟩
  | .hbm, ⟨77, _⟩ => ⟨S50000x64, .f32⟩
  | .hbm, ⟨78, _⟩ => ⟨S50000x64, .f32⟩
  | .hbm, ⟨79, _⟩ => ⟨S50000x64, .f32⟩
  | .hbm, ⟨80, _⟩ => ⟨S50000x64, .f32⟩
  | .hbm, ⟨81, _⟩ => ⟨S_, .f32⟩
  | .hbm, ⟨82, _⟩ => ⟨S50000x64, .f32⟩
  | .hbm, ⟨83, _⟩ => ⟨S50000x64, .f32⟩
  | .hbm, ⟨84, _⟩ => ⟨S_, .i32⟩
  | .hbm, ⟨85, _⟩ => ⟨S800000, .i32⟩
  | .hbm, ⟨86, _⟩ => ⟨S800000, .i1⟩
  | .hbm, ⟨87, _⟩ => ⟨S_, .i32⟩
  | .hbm, ⟨88, _⟩ => ⟨S800000, .i32⟩
  | .hbm, ⟨89, _⟩ => ⟨S800000, .i32⟩
  | .hbm, ⟨90, _⟩ => ⟨S800000, .i32⟩
  | .hbm, ⟨91, _⟩ => ⟨S800000x1, .i32⟩
  | .hbm, ⟨92, _⟩ => ⟨S800000x64, .f32⟩
  | .hbm, ⟨93, _⟩ => ⟨S_, .i32⟩
  | .hbm, ⟨94, _⟩ => ⟨S800000, .i32⟩
  | .hbm, ⟨95, _⟩ => ⟨S800000, .i1⟩
  | .hbm, ⟨96, _⟩ => ⟨S_, .i32⟩
  | .hbm, ⟨97, _⟩ => ⟨S800000, .i32⟩
  | .hbm, ⟨98, _⟩ => ⟨S800000, .i32⟩
  | .hbm, ⟨99, _⟩ => ⟨S800000, .i32⟩
  | .hbm, ⟨100, _⟩ => ⟨S800000x1, .i32⟩
  | .hbm, ⟨101, _⟩ => ⟨S800000x64, .f32⟩
  | .hbm, ⟨102, _⟩ => ⟨S800000x128, .f32⟩
  | .hbm, ⟨103, _⟩ => ⟨S800000x64, .f32⟩
  | .hbm, ⟨104, _⟩ => ⟨S1x64, .f32⟩
  | .hbm, ⟨105, _⟩ => ⟨S800000x64, .f32⟩
  | .hbm, ⟨106, _⟩ => ⟨S800000x64, .f32⟩
  | .hbm, ⟨107, _⟩ => ⟨S_, .f32⟩
  | .hbm, ⟨108, _⟩ => ⟨S800000x64, .f32⟩
  | .hbm, ⟨109, _⟩ => ⟨S800000x64, .f32⟩
  | .hbm, ⟨110, _⟩ => ⟨S800000x2, .f32⟩
  | .hbm, ⟨111, _⟩ => ⟨S1x2, .f32⟩
  | .hbm, ⟨112, _⟩ => ⟨S800000x2, .f32⟩
  | .hbm, ⟨113, _⟩ => ⟨S800000x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call0_cst : Ref sig .tc := ⟨.hbm, 47, rfl⟩
abbrev main_call0_v0 : Ref sig .tc := ⟨.hbm, 48, rfl⟩
abbrev main_v29 : Ref sig .tc := ⟨.hbm, 49, rfl⟩
abbrev main_c_4 : Ref sig .tc := ⟨.hbm, 50, rfl⟩
abbrev main_v30 : Ref sig .tc := ⟨.hbm, 51, rfl⟩
abbrev main_v31 : Ref sig .tc := ⟨.hbm, 52, rfl⟩
abbrev main_c_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_7 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_9 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_call1_cst : Ref sig .tc := ⟨.hbm, 81, rfl⟩
abbrev main_call1_v0 : Ref sig .tc := ⟨.hbm, 82, rfl⟩
abbrev main_v55 : Ref sig .tc := ⟨.hbm, 83, rfl⟩
abbrev main_c_10 : Ref sig .tc := ⟨.hbm, 84, rfl⟩
abbrev main_v56 : Ref sig .tc := ⟨.hbm, 85, rfl⟩
abbrev main_v57 : Ref sig .tc := ⟨.hbm, 86, rfl⟩
abbrev main_c_11 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_c_12 : Ref sig .tc := ⟨.hbm, 93, rfl⟩
abbrev main_v63 : Ref sig .tc := ⟨.hbm, 94, rfl⟩
abbrev main_v64 : Ref sig .tc := ⟨.hbm, 95, rfl⟩
abbrev main_c_13 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_call2_cst : Ref sig .tc := ⟨.hbm, 107, rfl⟩
abbrev main_call2_v0 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  concatenates_S800000x64_S800000x64_S800000x128_d1 : Shape.Concatenates [S800000x64, S800000x64] S800000x128 1
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S2_S1x2_1 : S2.BroadcastsInDim S1x2 (![1] : Fin 1 → Fin S1x2.rank)
  bcast_S1x2_S800000x2_0_1 : S1x2.BroadcastsInDim S800000x2 (![0, 1] : Fin 2 → Fin S800000x2.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  dot_S800000x128_S128x64_S800000x64_1_0_0_1_n_n_wf : DotDims.WF S800000x128 S128x64 S800000x64 [1] [0] [0] [1] [] []
  dot_S800000x64_S64x2_S800000x2_1_0_0_1_n_n_wf : DotDims.WF S800000x64 S64x2 S800000x2 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def dot_S800000x64_S64x2_S800000x2_1_0_0_1_n_n : DotDims S800000x64 S64x2 S800000x2 where
  lhsContracting := [1]
  rhsContracting := [0]
  lhsNonContracting := [0]
  rhsNonContracting := [1]
  lhsBatch := []
  rhsBatch := []
  wf := dot_S800000x64_S64x2_S800000x2_1_0_0_1_n_n_wf

class Facts : Prop extends Facts₀ where

variable [Facts]
-- ==== Proof.KernelRun.lean ====
/-
  The idealized kernel's run with its result NAMED.

  The program is three kernel regions among stretches of host operations.  Run from the launch memory it ends with
  every buffer at the contents `W6`: the launch contents pushed through each host stretch (`StableHlo.after`) and each
  region (its arrays at what the write-backs leave, `Dat.arrAt`) in turn.  The frame claim keeps of that final state
  the twelve argument arrays; the value claim needs the result array `main_v56` too, and this is the run with both:
  the result array ends at `W6` of its buffer, each argument array as launched.
-/
import proofs.«115881_j16552803959009_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents of its buffer and the argument arrays as launched. -/
theorem run : θ_run defs (onTc (τ := τ) (main (F := F))) ⟨m, fun _ => 0, ρ⟩ (fun r => ∀ c : Dev nD,
      r.2.mem ((c.tc : Thread nD τ).loc main_v56) = W6 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v56 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.KernelIdeal.ValueRun

end
-- ==== Proof.LibDotSum.lean ====
/-
  A contraction over ONE axis, re-indexed by that axis's coordinate.

  A matrix product's sum ranges over the contraction shape's index set; when one axis is contracted that set
  is in bijection with `Fin K`, and the sum becomes the familiar `∑ k : Fin K, L k * R k` once each operand
  is known at the operand indices.
-/
import Idealize.ShloMosaic.PureOps.Ideal
import Idealize.ShloMosaic.PureOps.Ideal.Laws
import Idealize.ShloMosaic.Lib.ValueIdx

noncomputable section

open scoped BigOperators

namespace Idealize.ShloMosaic.LibDotSum

open Idealize.ShloMosaic Idealize.ShloMosaic.ValueIdx

/-- The contraction sum of a one-axis dot as a sum over the contracted coordinate `k : Fin K`, given each
    operand's value at the operand index of `k`. -/
theorem sum_single {sl sr so : Shape} (D : DotDims sl sr so) (K : Nat) (hr : D.contr.rank = 1)
    (hs : D.contr.size ⟨0, by omega⟩ = K) (lhs : sl.Idx → EReal) (rhs : sr.Idx → EReal) (j : so.Idx)
    (L R : Fin K → EReal)
    (hl : ∀ k : Fin K, lhs (D.lhsIdx j ((contrEquiv1 D K hr hs).symm k)) = L k)
    (hrr : ∀ k : Fin K, rhs (D.rhsIdx j ((contrEquiv1 D K hr hs).symm k)) = R k) :
    ∑ q : D.contr.Idx, lhs (D.lhsIdx j q) * rhs (D.rhsIdx j q) = ∑ k : Fin K, L k * R k := by
  rw [← Equiv.sum_comp (contrEquiv1 D K hr hs).symm]
  exact Finset.sum_congr rfl fun k _ => by rw [hl k, hrr k]

/-- The left operand's coordinate on the single contracted axis is the contracted coordinate. -/
theorem lhs_contr_val {sl sr so : Shape} (D : DotDims sl sr so) (K : Nat) (hr : D.contr.rank = 1)
    (hs : D.contr.size ⟨0, by omega⟩ = K) {cl : Fin sl.rank} (hc : D.lhsContracting = [cl]) (j : so.Idx) (k : Fin K) :
    (D.lhsIdx j ((contrEquiv1 D K hr hs).symm k) cl).val = k.val :=
  (D.lhsIdx_val_of_single hc j _).trans (contrEquiv1_symm_val D K hr hs k)

/-- The right operand's coordinate on the single contracted axis is the contracted coordinate. -/
theorem rhs_contr_val {sl sr so : Shape} (D : DotDims sl sr so) (K : Nat) (hr : D.contr.rank = 1)
    (hs : D.contr.size ⟨0, by omega⟩ = K) {cr : Fin sr.rank} (hc : D.rhsContracting = [cr]) (j : so.Idx) (k : Fin K) :
    (D.rhsIdx j ((contrEquiv1 D K hr hs).symm k) cr).val = k.val :=
  (D.rhsIdx_val_of_single hc j _).trans (contrEquiv1_symm_val D K hr hs k)

end Idealize.ShloMosaic.LibDotSum

end
-- ==== Proof.LibMatmul2.lean ====
/-
  A matrix product of a `[M, K]` array by a `[K, N]` array, contracted over the one shared axis, read at `(p, q)`:
  the sum over `k` of the left operand at `(p, k)` times the right operand at `(k, q)`.
-/
import Idealize.ShloMosaic.PureOps.Ideal
import Idealize.ShloMosaic.PureOps.Ideal.Laws
import Idealize.ShloMosaic.Lib.ValueIdx
import proofs.«115881_j16552803959009_1_alg».proof.Proof.LibDotSum

noncomputable section

open scoped BigOperators

namespace Idealize.ShloMosaic.LibMatmul2

open Idealize.ShloMosaic Idealize.ShloMosaic.ValueIdx

/-- The contraction sum of a `[M, K] × [K, N]` product at `(p, q)`, over the contracted coordinate.  The two facts
    about the free axes (`hl0`, `hr1`: the left operand's row is the result's row, the right operand's column the result's
    column) are read off a program's literal dimension numbers. -/
theorem contr_sum {M K N : Nat} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (x : (⟨2, ![M, K]⟩ : Shape).Idx → EReal) (y : (⟨2, ![K, N]⟩ : Shape).Idx → EReal) (p : Fin M) (q : Fin N) :
    ∑ c : D.contr.Idx, x (D.lhsIdx (ix2 p q) c) * y (D.rhsIdx (ix2 p q) c) = ∑ k : Fin K, x (ix2 p k) * y (ix2 k q) := by
  refine LibDotSum.sum_single D K hr hs x y (ix2 p q) (fun k => x (ix2 p k)) (fun k => y (ix2 k q)) (fun k => ?_) (fun k => ?_)
  · refine congrArg x (funext fun a => Fin.ext ?_)
    match a with
    | ⟨0, _⟩ => exact hl0 _ _
    | ⟨1, _⟩ => exact LibDotSum.lhs_contr_val D K hr hs hlc _ k
  · refine congrArg y (funext fun a => Fin.ext ?_)
    match a with
    | ⟨0, _⟩ => exact LibDotSum.rhs_contr_val D K hr hs hrc _ k
    | ⟨1, _⟩ => exact hr1 _ _

/-- A kernel's matrix product into a zero accumulator, at `(p, q)`. -/
theorem matmul_zero_apply {M K N : Nat} {φ₁ φ₂ : FTy} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) :=
  (Ideal.matmul_constant_zero_apply D prec x y (ix2 p q)).trans (contr_sum D hr hs hlc hrc hl0 hr1 x y p q)

/-- The host's `dot_general` of the same shape, at `(p, q)`. -/
theorem dotGeneral_apply {M K N : Nat} {φ₁ φ₂ : FTy} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (prec : Option ContractPrecision) (x : FVec Ideal ⟨2, ![M, K]⟩ φ₁) (y : FVec Ideal ⟨2, ![K, N]⟩ φ₂) (p : Fin M) (q : Fin N) :
    Host.dotGeneral D prec x y (ix2 p q) = ∑ k : Fin K, x (ix2 p k) * y (ix2 k q) := by
  simp only [Host.dotGeneral]
  rw [Ideal.dotGeneral_apply]
  exact contr_sum D hr hs hlc hrc hl0 hr1 x y p q

end Idealize.ShloMosaic.LibMatmul2

end
-- ==== Proof.LibHostBroadcast.lean ====
/-
  Array operations of the host read at an index, for any sizes.

  A vector laid out as a one-column matrix, a column repeated over the columns of a matrix, a vector laid out as a
  one-row matrix, a row repeated over the rows of a matrix, and a scalar repeated everywhere: each result entry is one
  entry of the operand, named here.  Also: row numbers as words — when a word's signed value is a row of a table, reading
  the table at that word, with negative words counted from the end and the result clamped, reads that very row.
-/
import Idealize.ShloMosaic.PureOps.Ideal
import Idealize.ShloMosaic.Lib.ValueIdx
import Idealize.ShloMosaic.Lib.Pipeline.Value

noncomputable section

namespace Cert.HostPat

open Idealize.ShloMosaic Idealize.ShloMosaic.ValueIdx

variable {α : Type}

/-- A vector `[R]` laid out as a column `[R, 1]`, read at `(e, u)`: entry `e`. -/
theorem col_apply {R : Nat} (h : (⟨1, ![R]⟩ : Shape).BroadcastsInDim ⟨2, ![R, 1]⟩ ![0])
    (x : (⟨1, ![R]⟩ : Shape).Idx → α) (e : Fin R) (u : Fin 1) :
    broadcastInDim ⟨2, ![R, 1]⟩ ![0] h x (ix2 e u) = x (ix1 e) :=
  broadcastInDim_apply _ h x _ _ (fun a => by
    match a with
    | ⟨0, _⟩ =>
      show e.val = if R = 1 then 0 else e.val
      by_cases h1 : R = 1
      · rw [if_pos h1]; have := e.isLt; omega
      · rw [if_neg h1])

/-- A column `[R, 1]` repeated over `C` columns, read at `(e, k)`: the column's entry `(e, 0)`. -/
theorem colCols_apply {R C : Nat} (h : (⟨2, ![R, 1]⟩ : Shape).BroadcastsInDim ⟨2, ![R, C]⟩ ![0, 1])
    (x : (⟨2, ![R, 1]⟩ : Shape).Idx → α) (e : Fin R) (k : Fin C) :
    broadcastInDim ⟨2, ![R, C]⟩ ![0, 1] h x (ix2 e k) = x (ix2 e 0) :=
  broadcastInDim_apply _ h x _ _ (fun a => by
    match a with
    | ⟨0, _⟩ =>
      show e.val = if R = 1 then 0 else e.val
      by_cases h1 : R = 1
      · rw [if_pos h1]; have := e.isLt; omega
      · rw [if_neg h1]
    | ⟨1, _⟩ => rfl)

/-- A vector `[C]` laid out as a row `[1, C]`, read at `(u, k)`: entry `k`. -/
theorem row_apply {C : Nat} (h : (⟨1, ![C]⟩ : Shape).BroadcastsInDim ⟨2, ![1, C]⟩ ![1])
    (x : (⟨1, ![C]⟩ : Shape).Idx → α) (u : Fin 1) (k : Fin C) :
    broadcastInDim ⟨2, ![1, C]⟩ ![1] h x (ix2 u k) = x (ix1 k) :=
  broadcastInDim_apply _ h x _ _ (fun a => by
    match a with
    | ⟨0, _⟩ =>
      show k.val = if C = 1 then 0 else k.val
      by_cases h1 : C = 1
      · rw [if_pos h1]; have := k.isLt; omega
      · rw [if_neg h1])

/-- A row `[1, C]` repeated over `N` rows, read at `(p, k)`: the row's entry `(0, k)`. -/
theorem rowRows_apply {N C : Nat} (h : (⟨2, ![1, C]⟩ : Shape).BroadcastsInDim ⟨2, ![N, C]⟩ ![0, 1])
    (x : (⟨2, ![1, C]⟩ : Shape).Idx → α) (p : Fin N) (k : Fin C) :
    broadcastInDim ⟨2, ![N, C]⟩ ![0, 1] h x (ix2 p k) = x (ix2 0 k) :=
  broadcastInDim_apply _ h x _ _ (fun a => by
    match a with
    | ⟨0, _⟩ => rfl
    | ⟨1, _⟩ =>
      show k.val = if C = 1 then 0 else k.val
      by_cases h1 : C = 1
      · rw [if_pos h1]; have := k.isLt; omega
      · rw [if_neg h1])

/-- A scalar repeated over any shape, read anywhere: the scalar. -/
theorem splat_apply (t : Shape) (h : (⟨0, ![]⟩ : Shape).BroadcastsInDim t ![])
    (x : (⟨0, ![]⟩ : Shape).Idx → α) (j : t.Idx) (k : (⟨0, ![]⟩ : Shape).Idx) :
    broadcastInDim t ![] h x j = x k :=
  broadcastInDim_apply _ h x _ _ (fun a => a.elim0)

end Cert.HostPat

end
-- ==== Proof.LibSageLayer.lean ====
/-
  One layer of a graph convolution with a self connection, on the extended reals, for any widths.

  A node's row `ar` of averaged neighbour features and its own row `hr`, both of `D` entries, two weight matrices
  `wl`, `wr` (`D` by `O`) and a bias `b` of `O` entries give the node's new row
    entry q = max (Σ k, ar k * wl (k, q) + Σ k, hr k * wr (k, q) + b q) 0          (q < O).
  The zero of the rectifier is kept as the constant of the zero word, never evaluated.

  Two spellings compute it.  A block of `R` rows computed with two matrix products into zero accumulators, their sum,
  then the bias row broadcast over the rows, then the rectifier (`block_apply`); and the whole array computed with one
  product, the bias, then the other product, then the rectifier (`host_apply`).  They differ in the order of the three
  summands only, and addition of extended reals is commutative and associative — infinite entries included — so both
  are `entry` of the row.  Hence a block of rows of the result depends on the same rows of the two inputs only, and any
  tiling of the rows computes the one function `rows`.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«115881_j16552803959009_1_alg».proof.Proof.LibMatmul2
import proofs.«115881_j16552803959009_1_alg».proof.Proof.LibHostBroadcast

noncomputable section

open scoped BigOperators

namespace Idealize.ShloMosaic.LibSageLayer

open Idealize.ShloMosaic Idealize.ShloMosaic.ValueIdx

variable {D O : ℕ}

/-- Entry `q` of a node's new row: the rectified sum of the two affine images and the bias. -/
def entry (ar hr : Fin D → EReal) (wl wr : (⟨2, ![D, O]⟩ : Shape).Idx → EReal) (b : Fin O → EReal) (q : Fin O) : EReal :=
  max ((∑ k : Fin D, ar k * wl (ix2 k q)) + (∑ k : Fin D, hr k * wr (ix2 k q)) + b q) (Ideal.ofBits .f32 0x00000000#32)

/-- The layer applied to every row: entry `(r, q)` of the result is `entry` of row `r` of `a` and of `h` at `q`, the
    bias given as a one-row matrix. -/
def rows {N : ℕ} (a h : (⟨2, ![N, D]⟩ : Shape).Idx → EReal) (wl wr : (⟨2, ![D, O]⟩ : Shape).Idx → EReal)
    (b : (⟨2, ![1, O]⟩ : Shape).Idx → EReal) : (⟨2, ![N, O]⟩ : Shape).Idx → EReal :=
  fun i => entry (fun k => a (ix2 (i 0) k)) (fun k => h (ix2 (i 0) k)) wl wr (fun q => b (ix2 (0 : Fin 1) q)) (i 1)

theorem rows_apply {N : ℕ} (a h : (⟨2, ![N, D]⟩ : Shape).Idx → EReal) (wl wr : (⟨2, ![D, O]⟩ : Shape).Idx → EReal)
    (b : (⟨2, ![1, O]⟩ : Shape).Idx → EReal) (r : Fin N) (q : Fin O) :
    rows a h wl wr b (ix2 r q)
      = entry (fun k => a (ix2 r k)) (fun k => h (ix2 r k)) wl wr (fun q => b (ix2 (0 : Fin 1) q)) q := rfl

/-- A block of `R` rows computed as two products into zero accumulators, added, plus the broadcast bias row, rectified
    against the broadcast zero, read at `(p, q)`: `entry` of the block's row `p`.  The facts about the product's
    dimension numbers are read off a program's literal record. -/
theorem block_apply {R : ℕ} {φ₁ φ₂ : FTy} (Dm : DotDims ⟨2, ![R, D]⟩ ⟨2, ![D, O]⟩ ⟨2, ![R, O]⟩)
    (hr : Dm.contr.rank = 1) (hs : Dm.contr.size ⟨0, by omega⟩ = D)
    (hlc : Dm.lhsContracting = [1]) (hrc : Dm.rhsContracting = [0])
    (hl0 : ∀ j q, (Dm.lhsIdx j q 0).val = (j 0).val) (hr1 : ∀ j q, (Dm.rhsIdx j q 1).val = (j 1).val)
    (bb : (⟨2, ![1, O]⟩ : Shape).Broadcasts ⟨2, ![R, O]⟩)
    (a h : FVec Ideal ⟨2, ![R, D]⟩ φ₁) (wl wr : FVec Ideal ⟨2, ![D, O]⟩ φ₂) (b : FVec Ideal ⟨2, ![1, O]⟩ .f32)
    (p : Fin R) (q : Fin O) :
    maximumf
        (addf
          (addf (FloatOps.matmul Dm none a wl (constant ⟨2, ![R, O]⟩ .f32 0x00000000#32))
            (FloatOps.matmul Dm none h wr (constant ⟨2, ![R, O]⟩ .f32 0x00000000#32)))
          (broadcastTo ⟨2, ![R, O]⟩ b bb))
        (broadcast ⟨2, ![R, O]⟩ (FloatOps.ofBits (F := Ideal) .f32 0x00000000#32)) (ix2 p q)
      = entry (fun k => a (ix2 p k)) (fun k => h (ix2 p k)) wl wr (fun q => b (ix2 (0 : Fin 1) q)) q := by
  rw [maximumf_apply, addf_apply, addf_apply, broadcast_apply,
    LibMatmul2.matmul_zero_apply Dm hr hs hlc hrc hl0 hr1 none a wl p q,
    LibMatmul2.matmul_zero_apply Dm hr hs hlc hrc hl0 hr1 none h wr p q,
    broadcastTo_1b_ab_apply b bb p q]
  rfl

/-- The whole array computed on the host — a product, the bias laid as a row and repeated over the rows, the other
    product, the rectifier against a repeated zero — read at `(r, q)`: `entry` of row `r`, by commuting the bias past
    the second product. -/
theorem host_apply {N : ℕ} (Dm : DotDims ⟨2, ![N, D]⟩ ⟨2, ![D, O]⟩ ⟨2, ![N, O]⟩)
    (hr : Dm.contr.rank = 1) (hs : Dm.contr.size ⟨0, by omega⟩ = D)
    (hlc : Dm.lhsContracting = [1]) (hrc : Dm.rhsContracting = [0])
    (hl0 : ∀ j q, (Dm.lhsIdx j q 0).val = (j 0).val) (hr1 : ∀ j q, (Dm.rhsIdx j q 1).val = (j 1).val)
    (hb1 : (⟨1, ![O]⟩ : Shape).BroadcastsInDim ⟨2, ![1, O]⟩ ![1])
    (hb2 : (⟨2, ![1, O]⟩ : Shape).BroadcastsInDim ⟨2, ![N, O]⟩ ![0, 1])
    (hz : (⟨0, ![]⟩ : Shape).BroadcastsInDim ⟨2, ![N, O]⟩ ![])
    (a h : FVec Ideal ⟨2, ![N, D]⟩ .f32) (wl wr : FVec Ideal ⟨2, ![D, O]⟩ .f32) (b : FVec Ideal ⟨1, ![O]⟩ .f32)
    (r : Fin N) (q : Fin O) :
    maximumf
        (addf
          (addf (Host.dotGeneral Dm none a wl)
            (broadcastInDim ⟨2, ![N, O]⟩ ![0, 1] hb2 (broadcastInDim ⟨2, ![1, O]⟩ ![1] hb1 b)))
          (Host.dotGeneral Dm none h wr))
        (broadcastInDim ⟨2, ![N, O]⟩ ![] hz (constant (F := Ideal) ⟨0, ![]⟩ .f32 0x00000000#32)) (ix2 r q)
      = entry (fun k => a (ix2 r k)) (fun k => h (ix2 r k)) wl wr (fun q => b (ix1 q)) q := by
  rw [maximumf_apply, addf_apply, addf_apply,
    LibMatmul2.dotGeneral_apply Dm hr hs hlc hrc hl0 hr1 none a wl r q,
    LibMatmul2.dotGeneral_apply Dm hr hs hlc hrc hl0 hr1 none h wr r q,
    Cert.HostPat.rowRows_apply hb2 _ r q, Cert.HostPat.row_apply hb1 b 0 q,
    Cert.HostPat.splat_apply _ hz _ (ix2 r q) ix0, constant_apply]
  unfold entry
  rw [add_right_comm]

/-- The host's whole array IS `rows`, the bias vector laid as a one-row matrix by a change of shape. -/
theorem host_eq_rows {N : ℕ} (Dm : DotDims ⟨2, ![N, D]⟩ ⟨2, ![D, O]⟩ ⟨2, ![N, O]⟩)
    (hr : Dm.contr.rank = 1) (hs : Dm.contr.size ⟨0, by omega⟩ = D)
    (hlc : Dm.lhsContracting = [1]) (hrc : Dm.rhsContracting = [0])
    (hl0 : ∀ j q, (Dm.lhsIdx j q 0).val = (j 0).val) (hr1 : ∀ j q, (Dm.rhsIdx j q 1).val = (j 1).val)
    (hb1 : (⟨1, ![O]⟩ : Shape).BroadcastsInDim ⟨2, ![1, O]⟩ ![1])
    (hb2 : (⟨2, ![1, O]⟩ : Shape).BroadcastsInDim ⟨2, ![N, O]⟩ ![0, 1])
    (hz : (⟨0, ![]⟩ : Shape).BroadcastsInDim ⟨2, ![N, O]⟩ ![])
    (hc : (⟨1, ![O]⟩ : Shape).ShapeCasts ⟨2, ![1, O]⟩)
    (a h : FVec Ideal ⟨2, ![N, D]⟩ .f32) (wl wr : FVec Ideal ⟨2, ![D, O]⟩ .f32) (b : FVec Ideal ⟨1, ![O]⟩ .f32) :
    maximumf
        (addf
          (addf (Host.dotGeneral Dm none a wl)
            (broadcastInDim ⟨2, ![N, O]⟩ ![0, 1] hb2 (broadcastInDim ⟨2, ![1, O]⟩ ![1] hb1 b)))
          (Host.dotGeneral Dm none h wr))
        (broadcastInDim ⟨2, ![N, O]⟩ ![] hz (constant (F := Ideal) ⟨0, ![]⟩ .f32 0x00000000#32))
      = rows a h wl wr (shapeCast ⟨2, ![1, O]⟩ b hc) := by
  funext i
  obtain ⟨r, q, rfl⟩ : ∃ (r : Fin N) (q : Fin O), i = ix2 r q := ⟨i 0, i 1, eq_ix2 i⟩
  rw [host_apply Dm hr hs hlc hrc hl0 hr1 hb1 hb2 hz a h wl wr b r q, rows_apply]
  refine congrArg (fun f => entry (fun k => a (ix2 r k)) (fun k => h (ix2 r k)) wl wr f q) (funext fun q' => ?_)
  exact (shapeCast_a_1a_apply b hc (0 : Fin 1) q').symm

end Idealize.ShloMosaic.LibSageLayer

end
-- ==== Proof.Layer1.lean ====
/-
  The first kernel region — the first graph-convolution layer — as one function of the arrays it finds.

  The region walks ten blocks of 5000 rows.  At a point it loads the block's rows of the averaged neighbour features and
  of the node features, the two 128-by-64 weight matrices and the bias row, and stores
  `max (a · Wl + x · Wr + b) 0` for those rows.  Entry `(p, q)` of that block is the layer's `entry` of row `p` of the
  two blocks (the body's changes of float format are the identity on the extended reals), row `p` of point `t`'s blocks
  is row `5000 t + p` of the arrays, and the ten blocks of rows tile the output array: so the output array ends
  holding `LibSageLayer.rows` of the whole arrays.
-/
import proofs.«115881_j16552803959009_1_alg».proof.Proof.Gen.KernelIdeal.Frame
import proofs.«115881_j16552803959009_1_alg».proof.Proof.LibSageLayer
import Idealize.ShloMosaic.Lib.Pipeline.Value
import Idealize.ShloMosaic.Lib.ValueIdx

set_option maxRecDepth 16384

noncomputable section

namespace Cert.KernelIdeal.Layer1

open Cert.KernelIdeal Cert.KernelIdeal.Gen
open Idealize.ShloMosaic Idealize.ShloMosaic.TcCoe Idealize.ShloMosaic.ValueIdx Idealize.SL.Sem
open Idealize.ShloMosaic.Pipeline (Dat Cfg Window)
open Idealize.ShloMosaic.LibSageLayer (rows entry rows_apply)

/-! ## The matrix product's record: rows go to rows, columns to columns -/

theorem dot_row (j : S5000x64.Idx) (q : dot_S5000x128_S128x64_S5000x64_1_0_0_1_n_n.contr.Idx) : (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl

theorem dot_col (j : S5000x64.Idx) (q : dot_S5000x128_S128x64_S5000x64_1_0_0_1_n_n.contr.Idx) : (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

/-! ## What the body stores, at an index -/

/-- Entry `(p, q)` of the block the body stores is the layer's `entry` of row `p` of the two blocks of rows it loaded:
    the changes of float format are the identity on the extended reals. -/
theorem pay_apply (x0 x1 : Vec Ideal S5000x128 .f32) (x2 x3 : Vec Ideal S128x64 .f32) (x4 : Vec Ideal S1x64 .f32)
    (p : Fin 5000) (q : Fin 64) :
    k0_pay1 x0 x1 x2 x3 x4 (ix2 p q)
      = entry (fun k => x0 (ix2 p k)) (fun k => x1 (ix2 p k)) x2 x3 (fun q => x4 (ix2 (0 : Fin 1) q)) q := by
  unfold k0_pay1
  simp only [shapeCast_self]
  exact LibSageLayer.block_apply dot_S5000x128_S128x64_S5000x64_1_0_0_1_n_n rfl rfl rfl rfl dot_row dot_col broadcasts_S1x64_S5000x64
    (truncf .bf16 x0 bitsLt_bf16_f32) (truncf .bf16 x1 bitsLt_bf16_f32) (truncf .bf16 x2 bitsLt_bf16_f32)
    (truncf .bf16 x3 bitsLt_bf16_f32) x4 p q

/-! ## The region at its entry contents `V` -/

variable (V : (c : Dev nD) → (b : Ref sig .tc) → Buf (Elt Ideal) ((c : Thread nD τ).loc b))

/-- The layer of the whole arrays the region finds: what its output array ends holding. -/
abbrev G (c : Dev nD) : S50000x64.Idx → EReal :=
  rows (V c main_v22) (V c main_arg0) (V c main_arg2) (V c main_arg4) (V c main_v23)

theorem hz : (![0, 0] : Fin 2 → Nat) = fun _ => 0 := funext fun a => by fin_cases a <;> rfl

/-- The printed index maps, decided over the grid: the two inputs of rows and the output move one block of rows per
    point; the weights and the bias row stay at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem row_lt (t : Fin cfg0.N) (p : Fin 5000) : 5000 * t.val + p.val < 50000 := by
  have hN : cfg0.N = 10 := N_0
  have := t.isLt; have := p.isLt; omega

/-- Row `p` of point `t`'s block of the first input is row `5000 t + p` of its array. -/
theorem blk0_apply (c : Dev nD) (t : Fin cfg0.N) (p : Fin 5000) (k : Fin 128) :
    (iblk0 V c 0 t : Vec Ideal S5000x128 .f32) (ix2 p k)
      = (V c main_v22 : S50000x128.Idx → EReal) (ix2 ⟨5000 * t.val + p.val, row_lt t p⟩ k) := by
  obtain ⟨e00, e01, -⟩ := idx_facts t
  unfold iblk0
  rw [View.read_apply]
  show V c main_v22 _ = V c main_v22 _
  refine congrArg (V c main_v22) (funext fun a => Fin.ext ?_)
  match a with
  | ⟨0, _⟩ => show win0_0.index t (0 : Fin 2) * 5000 + 1 * p.val = 5000 * t.val + p.val; rw [e00]; omega
  | ⟨1, _⟩ => show win0_0.index t (1 : Fin 2) * 128 + 1 * k.val = k.val; rw [e01]; omega

/-- Row `p` of point `t`'s block of the second input is row `5000 t + p` of its array. -/
theorem blk1_apply (c : Dev nD) (t : Fin cfg0.N) (p : Fin 5000) (k : Fin 128) :
    (iblk0 V c 1 t : Vec Ideal S5000x128 .f32) (ix2 p k)
      = (V c main_arg0 : S50000x128.Idx → EReal) (ix2 ⟨5000 * t.val + p.val, row_lt t p⟩ k) := by
  obtain ⟨-, -, e10, e11, -⟩ := idx_facts t
  unfold iblk0
  rw [View.read_apply]
  show V c main_arg0 _ = V c main_arg0 _
  refine congrArg (V c main_arg0) (funext fun a => Fin.ext ?_)
  match a with
  | ⟨0, _⟩ => show win0_1.index t (0 : Fin 2) * 5000 + 1 * p.val = 5000 * t.val + p.val; rw [e10]; omega
  | ⟨1, _⟩ => show win0_1.index t (1 : Fin 2) * 128 + 1 * k.val = k.val; rw [e11]; omega

/-- Each weight matrix's one block is the matrix. -/
theorem blk2_eq (c : Dev nD) (t : Fin cfg0.N) :
    (iblk0 V c 2 t : Vec Ideal S128x64 .f32) = (V c main_arg2 : S128x64.Idx → EReal) := by
  obtain ⟨-, -, -, -, e20, e21, -⟩ := idx_facts t
  funext y
  unfold iblk0
  rw [View.read_apply]
  show V c main_arg2 _ = V c main_arg2 _
  refine congrArg (V c main_arg2) (funext fun a => Fin.ext ?_)
  match a with
  | ⟨0, _⟩ => show win0_2.index t (0 : Fin 2) * 128 + 1 * (y 0).val = (y 0).val; rw [e20]; omega
  | ⟨1, _⟩ => show win0_2.index t (1 : Fin 2) * 64 + 1 * (y 1).val = (y 1).val; rw [e21]; omega

theorem blk3_eq (c : Dev nD) (t : Fin cfg0.N) :
    (iblk0 V c 3 t : Vec Ideal S128x64 .f32) = (V c main_arg4 : S128x64.Idx → EReal) := by
  obtain ⟨-, -, -, -, -, -, e30, e31, -⟩ := idx_facts t
  funext y
  unfold iblk0
  rw [View.read_apply]
  show V c main_arg4 _ = V c main_arg4 _
  refine congrArg (V c main_arg4) (funext fun a => Fin.ext ?_)
  match a with
  | ⟨0, _⟩ => show win0_3.index t (0 : Fin 2) * 128 + 1 * (y 0).val = (y 0).val; rw [e30]; omega
  | ⟨1, _⟩ => show win0_3.index t (1 : Fin 2) * 64 + 1 * (y 1).val = (y 1).val; rw [e31]; omega

/-- The bias row's one block is the row. -/
theorem blk4_eq (c : Dev nD) (t : Fin cfg0.N) :
    (iblk0 V c 4 t : Vec Ideal S1x64 .f32) = (V c main_v23 : S1x64.Idx → EReal) := by
  obtain ⟨-, -, -, -, -, -, -, -, e40, e41, -⟩ := idx_facts t
  funext y
  unfold iblk0
  rw [View.read_apply]
  show V c main_v23 _ = V c main_v23 _
  refine congrArg (V c main_v23) (funext fun a => Fin.ext ?_)
  match a with
  | ⟨0, _⟩ => show win0_4.index t (0 : Fin 2) * 1 + 1 * (y 0).val = (y 0).val; rw [e40]; omega
  | ⟨1, _⟩ => show win0_4.index t (1 : Fin 2) * 64 + 1 * (y 1).val = (y 1).val; rw [e41]; omega

/-- Entry `(p, q)` of point `t`'s output block sits at row `5000 t + p` of the output array. -/
theorem emb5 (t : Fin cfg0.N) (p : Fin 5000) (q : Fin 64) :
    ((cfg0.win 5).blk t).view.emb (ix2 p q) = (ix2 ⟨5000 * t.val + p.val, row_lt t p⟩ q : S50000x64.Idx) := by
  obtain ⟨-, -, -, -, -, -, -, -, -, -, e50, e51⟩ := idx_facts t
  funext a
  apply Fin.ext
  match a with
  | ⟨0, _⟩ => show win0_5.index t (0 : Fin 2) * 5000 + 1 * p.val = 5000 * t.val + p.val; rw [e50]; omega
  | ⟨1, _⟩ => show win0_5.index t (1 : Fin 2) * 64 + 1 * q.val = q.val; rw [e51]; omega

/-- WHAT POINT `t` WRITES BACK is block `t` of the layer of the whole arrays: a row of the result depends on the same
    row of the two inputs only. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x64) hz, View.ld_unit_zero (S := S1x64) hz]
  funext y
  obtain ⟨p, q, rfl⟩ : ∃ (p : Fin 5000) (q : Fin 64), y = ix2 p q := ⟨y 0, y 1, eq_ix2 y⟩
  refine (pay_apply (iblk0 V c 0 t) (iblk0 V c 1 t) (iblk0 V c 2 t) (iblk0 V c 3 t) (iblk0 V c 4 t) p q).trans ?_
  rw [View.read_apply, emb5 t p q]
  show _ = rows (V c main_v22) (V c main_arg0) (V c main_arg2) (V c main_arg4) (V c main_v23) (ix2 ⟨5000 * t.val + p.val, row_lt t p⟩ q)
  rw [rows_apply, blk2_eq V c t, blk3_eq V c t, blk4_eq V c t]
  have e0 : (fun k : Fin 128 => (iblk0 V c 0 t : Vec Ideal S5000x128 .f32) (ix2 p k))
      = fun k => (V c main_v22 : S50000x128.Idx → EReal) (ix2 ⟨5000 * t.val + p.val, row_lt t p⟩ k) :=
    funext fun k => blk0_apply V c t p k
  have e1 : (fun k : Fin 128 => (iblk0 V c 1 t : Vec Ideal S5000x128 .f32) (ix2 p k))
      = fun k => (V c main_arg0 : S50000x128.Idx → EReal) (ix2 ⟨5000 * t.val + p.val, row_lt t p⟩ k) :=
    funext fun k => blk1_apply V c t p k
  rw [e0, e1]

/-- An index of the output array is in point `t`'s block iff each coordinate is in the block's range on its axis. -/
theorem mem_blk (t : Fin cfg0.N) (i : S50000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v24).slice (win0_5.rect t)).set ↔ _
  rw [View.set_slice_whole, Rect.mem_set_unit]
  exact Iff.rfl

/-- The blocks of rows tile the output array: row `r` is in the block of point `r / 5000`. -/
theorem cover (i : S50000x64.Idx) :
    ∃ t : Fin cfg0.N, (cfg0.win 5).flush t = true ∧ i ∈ ((cfg0.win 5).blk t).view.set := by
  have h0 : (i 0).val < 50000 := (i 0).isLt
  have h1 : (i 1).val < 64 := (i 1).isLt
  have hN : cfg0.N = 10 := N_0
  refine ⟨⟨(i 0).val / 5000, by omega⟩, flush0_5 _, ?_⟩
  obtain ⟨-, -, -, -, -, -, -, -, -, -, e50, e51⟩ := idx_facts ⟨(i 0).val / 5000, by omega⟩
  rw [mem_blk]
  intro a
  match a with
  | ⟨0, _⟩ =>
    show win0_5.index _ (0 : Fin 2) * 5000 ≤ (i 0).val ∧ (i 0).val < win0_5.index _ (0 : Fin 2) * 5000 + 5000
    rw [e50]; show (i 0).val / 5000 * 5000 ≤ (i 0).val ∧ (i 0).val < (i 0).val / 5000 * 5000 + 5000; omega
  | ⟨1, _⟩ =>
    show win0_5.index _ (1 : Fin 2) * 64 ≤ (i 1).val ∧ (i 1).val < win0_5.index _ (1 : Fin 2) * 64 + 64
    rw [e51]; omega

/-- THE OUTPUT ARRAY after the region: the layer of the arrays the region found. -/
theorem final (c : Dev nD) : (dat0 V c).arrAt 5 cfg0.N = G V c :=
  (dat0 V c).arrAt_eq_of_cover 5 (G V c) (fun t _ => flushed_eq V c t) cover

end Cert.KernelIdeal.Layer1

end
-- ==== Proof.Layer2.lean ====
/-
  The second kernel region — the second graph-convolution layer — as one function of the arrays it finds.

  The region walks ten blocks of 5000 rows.  At a point it loads the block's rows of the averaged neighbour features and
  of the first layer's output, the two 64-by-64 weight matrices and the bias row, and stores
  `max (a · Wl + h · Wr + b) 0` for those rows.  Entry `(p, q)` of that block is the layer's `entry` of row `p` of the
  two blocks (the body's changes of float format are the identity on the extended reals), row `p` of point `t`'s blocks
  is row `5000 t + p` of the arrays, and the ten blocks of rows tile the output array: so the output array ends
  holding `LibSageLayer.rows` of the whole arrays.
-/
import proofs.«115881_j16552803959009_1_alg».proof.Proof.Gen.KernelIdeal.Frame
import proofs.«115881_j16552803959009_1_alg».proof.Proof.LibSageLayer
import Idealize.ShloMosaic.Lib.Pipeline.Value
import Idealize.ShloMosaic.Lib.ValueIdx

set_option maxRecDepth 16384

noncomputable section

namespace Cert.KernelIdeal.Layer2

open Cert.KernelIdeal Cert.KernelIdeal.Gen
open Idealize.ShloMosaic Idealize.ShloMosaic.TcCoe Idealize.ShloMosaic.ValueIdx Idealize.SL.Sem
open Idealize.ShloMosaic.Pipeline (Dat Cfg Window)
open Idealize.ShloMosaic.LibSageLayer (rows entry rows_apply)

/-! ## The matrix product's record: rows go to rows, columns to columns -/

theorem dot_row (j : S5000x64.Idx) (q : dot_S5000x64_S64x64_S5000x64_1_0_0_1_n_n.contr.Idx) : (dot_S5000x64_S64x64_S5000x64_1_0_0_1_n_n.lhsIdx j q 0).val = (j 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

theorem dot_col (j : S5000x64.Idx) (q : dot_S5000x64_S64x64_S5000x64_1_0_0_1_n_n.contr.Idx) : (dot_S5000x64_S64x64_S5000x64_1_0_0_1_n_n.rhsIdx j q 1).val = (j 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-! ## What the body stores, at an index -/

/-- Entry `(p, q)` of the block the body stores is the layer's `entry` of row `p` of the two blocks of rows it loaded:
    the changes of float format are the identity on the extended reals. -/
theorem pay_apply (x0 x1 : Vec Ideal S5000x64 .f32) (x2 x3 : Vec Ideal S64x64 .f32) (x4 : Vec Ideal S1x64 .f32)
    (p : Fin 5000) (q : Fin 64) :
    k1_pay1 x0 x1 x2 x3 x4 (ix2 p q)
      = entry (fun k => x0 (ix2 p k)) (fun k => x1 (ix2 p k)) x2 x3 (fun q => x4 (ix2 (0 : Fin 1) q)) q := by
  unfold k1_pay1
  simp only [shapeCast_self]
  exact LibSageLayer.block_apply dot_S5000x64_S64x64_S5000x64_1_0_0_1_n_n rfl rfl rfl rfl dot_row dot_col broadcasts_S1x64_S5000x64
    (truncf .bf16 x0 bitsLt_bf16_f32) (truncf .bf16 x1 bitsLt_bf16_f32) (truncf .bf16 x2 bitsLt_bf16_f32)
    (truncf .bf16 x3 bitsLt_bf16_f32) x4 p q

/-! ## The region at its entry contents `V` -/

variable (V : (c : Dev nD) → (b : Ref sig .tc) → Buf (Elt Ideal) ((c : Thread nD τ).loc b))

/-- The layer of the whole arrays the region finds: what its output array ends holding. -/
abbrev G (c : Dev nD) : S50000x64.Idx → EReal :=
  rows (V c main_v36) (V c main_v24) (V c main_arg5) (V c main_arg7) (V c main_v37)

theorem hz : (![0, 0] : Fin 2 → Nat) = fun _ => 0 := funext fun a => by fin_cases a <;> rfl

/-- The printed index maps, decided over the grid: the two inputs of rows and the output move one block of rows per
    point; the weights and the bias row stay at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem row_lt (t : Fin cfg1.N) (p : Fin 5000) : 5000 * t.val + p.val < 50000 := by
  have hN : cfg1.N = 10 := N_1
  have := t.isLt; have := p.isLt; omega

/-- Row `p` of point `t`'s block of the first input is row `5000 t + p` of its array. -/
theorem blk0_apply (c : Dev nD) (t : Fin cfg1.N) (p : Fin 5000) (k : Fin 64) :
    (iblk1 V c 0 t : Vec Ideal S5000x64 .f32) (ix2 p k)
      = (V c main_v36 : S50000x64.Idx → EReal) (ix2 ⟨5000 * t.val + p.val, row_lt t p⟩ k) := by
  obtain ⟨e00, e01, -⟩ := idx_facts t
  unfold iblk1
  rw [View.read_apply]
  show V c main_v36 _ = V c main_v36 _
  refine congrArg (V c main_v36) (funext fun a => Fin.ext ?_)
  match a with
  | ⟨0, _⟩ => show win1_0.index t (0 : Fin 2) * 5000 + 1 * p.val = 5000 * t.val + p.val; rw [e00]; omega
  | ⟨1, _⟩ => show win1_0.index t (1 : Fin 2) * 64 + 1 * k.val = k.val; rw [e01]; omega

/-- Row `p` of point `t`'s block of the second input is row `5000 t + p` of its array. -/
theorem blk1_apply (c : Dev nD) (t : Fin cfg1.N) (p : Fin 5000) (k : Fin 64) :
    (iblk1 V c 1 t : Vec Ideal S5000x64 .f32) (ix2 p k)
      = (V c main_v24 : S50000x64.Idx → EReal) (ix2 ⟨5000 * t.val + p.val, row_lt t p⟩ k) := by
  obtain ⟨-, -, e10, e11, -⟩ := idx_facts t
  unfold iblk1
  rw [View.read_apply]
  show V c main_v24 _ = V c main_v24 _
  refine congrArg (V c main_v24) (funext fun a => Fin.ext ?_)
  match a with
  | ⟨0, _⟩ => show win1_1.index t (0 : Fin 2) * 5000 + 1 * p.val = 5000 * t.val + p.val; rw [e10]; omega
  | ⟨1, _⟩ => show win1_1.index t (1 : Fin 2) * 64 + 1 * k.val = k.val; rw [e11]; omega

/-- Each weight matrix's one block is the matrix. -/
theorem blk2_eq (c : Dev nD) (t : Fin cfg1.N) :
    (iblk1 V c 2 t : Vec Ideal S64x64 .f32) = (V c main_arg5 : S64x64.Idx → EReal) := by
  obtain ⟨-, -, -, -, e20, e21, -⟩ := idx_facts t
  funext y
  unfold iblk1
  rw [View.read_apply]
  show V c main_arg5 _ = V c main_arg5 _
  refine congrArg (V c main_arg5) (funext fun a => Fin.ext ?_)
  match a with
  | ⟨0, _⟩ => show win1_2.index t (0 : Fin 2) * 64 + 1 * (y 0).val = (y 0).val; rw [e20]; omega
  | ⟨1, _⟩ => show win1_2.index t (1 : Fin 2) * 64 + 1 * (y 1).val = (y 1).val; rw [e21]; omega

theorem blk3_eq (c : Dev nD) (t : Fin cfg1.N) :
    (iblk1 V c 3 t : Vec Ideal S64x64 .f32) = (V c main_arg7 : S64x64.Idx → EReal) := by
  obtain ⟨-, -, -, -, -, -, e30, e31, -⟩ := idx_facts t
  funext y
  unfold iblk1
  rw [View.read_apply]
  show V c main_arg7 _ = V c main_arg7 _
  refine congrArg (V c main_arg7) (funext fun a => Fin.ext ?_)
  match a with
  | ⟨0, _⟩ => show win1_3.index t (0 : Fin 2) * 64 + 1 * (y 0).val = (y 0).val; rw [e30]; omega
  | ⟨1, _⟩ => show win1_3.index t (1 : Fin 2) * 64 + 1 * (y 1).val = (y 1).val; rw [e31]; omega

/-- The bias row's one block is the row. -/
theorem blk4_eq (c : Dev nD) (t : Fin cfg1.N) :
    (iblk1 V c 4 t : Vec Ideal S1x64 .f32) = (V c main_v37 : S1x64.Idx → EReal) := by
  obtain ⟨-, -, -, -, -, -, -, -, e40, e41, -⟩ := idx_facts t
  funext y
  unfold iblk1
  rw [View.read_apply]
  show V c main_v37 _ = V c main_v37 _
  refine congrArg (V c main_v37) (funext fun a => Fin.ext ?_)
  match a with
  | ⟨0, _⟩ => show win1_4.index t (0 : Fin 2) * 1 + 1 * (y 0).val = (y 0).val; rw [e40]; omega
  | ⟨1, _⟩ => show win1_4.index t (1 : Fin 2) * 64 + 1 * (y 1).val = (y 1).val; rw [e41]; omega

/-- Entry `(p, q)` of point `t`'s output block sits at row `5000 t + p` of the output array. -/
theorem emb5 (t : Fin cfg1.N) (p : Fin 5000) (q : Fin 64) :
    ((cfg1.win 5).blk t).view.emb (ix2 p q) = (ix2 ⟨5000 * t.val + p.val, row_lt t p⟩ q : S50000x64.Idx) := by
  obtain ⟨-, -, -, -, -, -, -, -, -, -, e50, e51⟩ := idx_facts t
  funext a
  apply Fin.ext
  match a with
  | ⟨0, _⟩ => show win1_5.index t (0 : Fin 2) * 5000 + 1 * p.val = 5000 * t.val + p.val; rw [e50]; omega
  | ⟨1, _⟩ => show win1_5.index t (1 : Fin 2) * 64 + 1 * q.val = q.val; rw [e51]; omega

/-- WHAT POINT `t` WRITES BACK is block `t` of the layer of the whole arrays: a row of the result depends on the same
    row of the two inputs only. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x64) hz, View.ld_unit_zero (S := S64x64) hz, View.ld_unit_zero (S := S1x64) hz]
  funext y
  obtain ⟨p, q, rfl⟩ : ∃ (p : Fin 5000) (q : Fin 64), y = ix2 p q := ⟨y 0, y 1, eq_ix2 y⟩
  refine (pay_apply (iblk1 V c 0 t) (iblk1 V c 1 t) (iblk1 V c 2 t) (iblk1 V c 3 t) (iblk1 V c 4 t) p q).trans ?_
  rw [View.read_apply, emb5 t p q]
  show _ = rows (V c main_v36) (V c main_v24) (V c main_arg5) (V c main_arg7) (V c main_v37) (ix2 ⟨5000 * t.val + p.val, row_lt t p⟩ q)
  rw [rows_apply, blk2_eq V c t, blk3_eq V c t, blk4_eq V c t]
  have e0 : (fun k : Fin 64 => (iblk1 V c 0 t : Vec Ideal S5000x64 .f32) (ix2 p k))
      = fun k => (V c main_v36 : S50000x64.Idx → EReal) (ix2 ⟨5000 * t.val + p.val, row_lt t p⟩ k) :=
    funext fun k => blk0_apply V c t p k
  have e1 : (fun k : Fin 64 => (iblk1 V c 1 t : Vec Ideal S5000x64 .f32) (ix2 p k))
      = fun k => (V c main_v24 : S50000x64.Idx → EReal) (ix2 ⟨5000 * t.val + p.val, row_lt t p⟩ k) :=
    funext fun k => blk1_apply V c t p k
  rw [e0, e1]

/-- An index of the output array is in point `t`'s block iff each coordinate is in the block's range on its axis. -/
theorem mem_blk (t : Fin cfg1.N) (i : S50000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v38).slice (win1_5.rect t)).set ↔ _
  rw [View.set_slice_whole, Rect.mem_set_unit]
  exact Iff.rfl

/-- The blocks of rows tile the output array: row `r` is in the block of point `r / 5000`. -/
theorem cover (i : S50000x64.Idx) :
    ∃ t : Fin cfg1.N, (cfg1.win 5).flush t = true ∧ i ∈ ((cfg1.win 5).blk t).view.set := by
  have h0 : (i 0).val < 50000 := (i 0).isLt
  have h1 : (i 1).val < 64 := (i 1).isLt
  have hN : cfg1.N = 10 := N_1
  refine ⟨⟨(i 0).val / 5000, by omega⟩, flush1_5 _, ?_⟩
  obtain ⟨-, -, -, -, -, -, -, -, -, -, e50, e51⟩ := idx_facts ⟨(i 0).val / 5000, by omega⟩
  rw [mem_blk]
  intro a
  match a with
  | ⟨0, _⟩ =>
    show win1_5.index _ (0 : Fin 2) * 5000 ≤ (i 0).val ∧ (i 0).val < win1_5.index _ (0 : Fin 2) * 5000 + 5000
    rw [e50]; show (i 0).val / 5000 * 5000 ≤ (i 0).val ∧ (i 0).val < (i 0).val / 5000 * 5000 + 5000; omega
  | ⟨1, _⟩ =>
    show win1_5.index _ (1 : Fin 2) * 64 ≤ (i 1).val ∧ (i 1).val < win1_5.index _ (1 : Fin 2) * 64 + 64
    rw [e51]; omega

/-- THE OUTPUT ARRAY after the region: the layer of the arrays the region found. -/
theorem final (c : Dev nD) : (dat1 V c).arrAt 5 cfg1.N = G V c :=
  (dat1 V c).arrAt_eq_of_cover 5 (G V c) (fun t _ => flushed_eq V c t) cover

end Cert.KernelIdeal.Layer2

end
-- ==== Proof.LibEdgeMlp.lean ====
/-
  A two-layer perceptron applied to every row, `relu (x · W1 + b1) · W2 + b2`, on the extended reals, for any widths.

  For a row `xr` of `I` entries, weights `w1` (`I` by `H`) and `w2` (`H` by `O`) and biases `b1`, `b2`,
    hid k = max (Σ i, xr i * w1 (i, k) + b1 k) 0          (k < H)
    out q = Σ k, hid k * w2 (k, q) + b2 q                 (q < O).
  The zero of the rectifier is kept as the constant of the zero word, never evaluated.

  A block of `R` rows computed with two matrix products into zero accumulators — the hidden layer passing through a
  change of float format, which is the identity on the extended reals — and bias rows broadcast over the rows
  (`block_apply`), and the whole array computed on the host with the biases laid as rows and repeated
  (`host_apply`), are both `out` of the row: no rearrangement of sums is involved.  So any tiling of the rows
  computes the one function `rows`.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«115881_j16552803959009_1_alg».proof.Proof.LibMatmul2
import proofs.«115881_j16552803959009_1_alg».proof.Proof.LibHostBroadcast

noncomputable section

open scoped BigOperators

namespace Idealize.ShloMosaic.LibEdgeMlp

open Idealize.ShloMosaic Idealize.ShloMosaic.ValueIdx

variable {I H O : ℕ}

/-- Entry `k` of a row's hidden layer. -/
def hid (xr : Fin I → EReal) (w1 : (⟨2, ![I, H]⟩ : Shape).Idx → EReal) (b1 : Fin H → EReal) (k : Fin H) : EReal :=
  max ((∑ i : Fin I, xr i * w1 (ix2 i k)) + b1 k) (Ideal.ofBits .f32 0x00000000#32)

/-- Entry `q` of a row's output. -/
def out (xr : Fin I → EReal) (w1 : (⟨2, ![I, H]⟩ : Shape).Idx → EReal) (b1 : Fin H → EReal)
    (w2 : (⟨2, ![H, O]⟩ : Shape).Idx → EReal) (b2 : Fin O → EReal) (q : Fin O) : EReal :=
  (∑ k : Fin H, hid xr w1 b1 k * w2 (ix2 k q)) + b2 q

/-- The perceptron applied to every row of an `[N, I]` array, the biases given as one-row matrices. -/
def rows {N : ℕ} (x : (⟨2, ![N, I]⟩ : Shape).Idx → EReal) (w1 : (⟨2, ![I, H]⟩ : Shape).Idx → EReal)
    (b1 : (⟨2, ![1, H]⟩ : Shape).Idx → EReal) (w2 : (⟨2, ![H, O]⟩ : Shape).Idx → EReal)
    (b2 : (⟨2, ![1, O]⟩ : Shape).Idx → EReal) : (⟨2, ![N, O]⟩ : Shape).Idx → EReal :=
  fun i => out (fun k => x (ix2 (i 0) k)) w1 (fun k => b1 (ix2 (0 : Fin 1) k)) w2 (fun q => b2 (ix2 (0 : Fin 1) q)) (i 1)

theorem rows_apply {N : ℕ} (x : (⟨2, ![N, I]⟩ : Shape).Idx → EReal) (w1 : (⟨2, ![I, H]⟩ : Shape).Idx → EReal)
    (b1 : (⟨2, ![1, H]⟩ : Shape).Idx → EReal) (w2 : (⟨2, ![H, O]⟩ : Shape).Idx → EReal)
    (b2 : (⟨2, ![1, O]⟩ : Shape).Idx → EReal) (r : Fin N) (q : Fin O) :
    rows x w1 b1 w2 b2 (ix2 r q)
      = out (fun k => x (ix2 r k)) w1 (fun k => b1 (ix2 (0 : Fin 1) k)) w2 (fun q => b2 (ix2 (0 : Fin 1) q)) q := rfl

/-- The hidden layer of a block of `R` rows at `(p, k)`. -/
theorem block_hid_apply {R : ℕ} {φ₁ φ₂ : FTy} (D1 : DotDims ⟨2, ![R, I]⟩ ⟨2, ![I, H]⟩ ⟨2, ![R, H]⟩)
    (hr : D1.contr.rank = 1) (hs : D1.contr.size ⟨0, by omega⟩ = I)
    (hlc : D1.lhsContracting = [1]) (hrc : D1.rhsContracting = [0])
    (hl0 : ∀ j q, (D1.lhsIdx j q 0).val = (j 0).val) (hr1 : ∀ j q, (D1.rhsIdx j q 1).val = (j 1).val)
    (bb1 : (⟨2, ![1, H]⟩ : Shape).Broadcasts ⟨2, ![R, H]⟩)
    (x : FVec Ideal ⟨2, ![R, I]⟩ φ₁) (w1 : FVec Ideal ⟨2, ![I, H]⟩ φ₂) (b1 : FVec Ideal ⟨2, ![1, H]⟩ .f32)
    (p : Fin R) (k : Fin H) :
    maximumf
        (addf (FloatOps.matmul D1 none x w1 (constant ⟨2, ![R, H]⟩ .f32 0x00000000#32)) (broadcastTo ⟨2, ![R, H]⟩ b1 bb1))
        (broadcast ⟨2, ![R, H]⟩ (FloatOps.ofBits (F := Ideal) .f32 0x00000000#32)) (ix2 p k)
      = hid (fun i => x (ix2 p i)) w1 (fun k => b1 (ix2 (0 : Fin 1) k)) k := by
  rw [maximumf_apply, addf_apply, broadcast_apply,
    LibMatmul2.matmul_zero_apply D1 hr hs hlc hrc hl0 hr1 none x w1 p k, broadcastTo_1b_ab_apply b1 bb1 p k]
  rfl

/-- A block of `R` rows of the output at `(p, q)` is `out` of the block's row `p`. -/
theorem block_apply {R : ℕ} {φ₁ φ₂ φ₃ : FTy} (D1 : DotDims ⟨2, ![R, I]⟩ ⟨2, ![I, H]⟩ ⟨2, ![R, H]⟩)
    (D2 : DotDims ⟨2, ![R, H]⟩ ⟨2, ![H, O]⟩ ⟨2, ![R, O]⟩)
    (hr : D1.contr.rank = 1) (hs : D1.contr.size ⟨0, by omega⟩ = I)
    (hlc : D1.lhsContracting = [1]) (hrc : D1.rhsContracting = [0])
    (hl0 : ∀ j q, (D1.lhsIdx j q 0).val = (j 0).val) (hr1 : ∀ j q, (D1.rhsIdx j q 1).val = (j 1).val)
    (hr' : D2.contr.rank = 1) (hs' : D2.contr.size ⟨0, by omega⟩ = H)
    (hlc' : D2.lhsContracting = [1]) (hrc' : D2.rhsContracting = [0])
    (hl0' : ∀ j q, (D2.lhsIdx j q 0).val = (j 0).val) (hr1' : ∀ j q, (D2.rhsIdx j q 1).val = (j 1).val)
    (bb1 : (⟨2, ![1, H]⟩ : Shape).Broadcasts ⟨2, ![R, H]⟩) (bb2 : (⟨2, ![1, O]⟩ : Shape).Broadcasts ⟨2, ![R, O]⟩)
    (hlt : FTy.bits .bf16 < FTy.bits .f32)
    (x : FVec Ideal ⟨2, ![R, I]⟩ φ₁) (w1 : FVec Ideal ⟨2, ![I, H]⟩ φ₂) (b1 : FVec Ideal ⟨2, ![1, H]⟩ .f32)
    (w2 : FVec Ideal ⟨2, ![H, O]⟩ φ₃) (b2 : FVec Ideal ⟨2, ![1, O]⟩ .f32) (p : Fin R) (q : Fin O) :
    addf
        (FloatOps.matmul D2 none
          (truncf .bf16
            (maximumf
              (addf (FloatOps.matmul D1 none x w1 (constant ⟨2, ![R, H]⟩ .f32 0x00000000#32))
                (broadcastTo ⟨2, ![R, H]⟩ b1 bb1))
              (broadcast ⟨2, ![R, H]⟩ (FloatOps.ofBits (F := Ideal) .f32 0x00000000#32))) hlt)
          w2 (constant ⟨2, ![R, O]⟩ .f32 0x00000000#32))
        (broadcastTo ⟨2, ![R, O]⟩ b2 bb2) (ix2 p q)
      = out (fun i => x (ix2 p i)) w1 (fun k => b1 (ix2 (0 : Fin 1) k)) w2 (fun q => b2 (ix2 (0 : Fin 1) q)) q := by
  rw [addf_apply, LibMatmul2.matmul_zero_apply D2 hr' hs' hlc' hrc' hl0' hr1' none _ w2 p q,
    broadcastTo_1b_ab_apply b2 bb2 p q]
  unfold out
  refine congrArg (· + b2 (ix2 (0 : Fin 1) q)) (Finset.sum_congr rfl fun k _ => ?_)
  rw [truncf_apply, block_hid_apply D1 hr hs hlc hrc hl0 hr1 bb1 x w1 b1 p k]

/-- The whole array computed on the host, read at `(r, q)`: `out` of row `r`. -/
theorem host_apply {N : ℕ} (D1 : DotDims ⟨2, ![N, I]⟩ ⟨2, ![I, H]⟩ ⟨2, ![N, H]⟩)
    (D2 : DotDims ⟨2, ![N, H]⟩ ⟨2, ![H, O]⟩ ⟨2, ![N, O]⟩)
    (hr : D1.contr.rank = 1) (hs : D1.contr.size ⟨0, by omega⟩ = I)
    (hlc : D1.lhsContracting = [1]) (hrc : D1.rhsContracting = [0])
    (hl0 : ∀ j q, (D1.lhsIdx j q 0).val = (j 0).val) (hr1 : ∀ j q, (D1.rhsIdx j q 1).val = (j 1).val)
    (hr' : D2.contr.rank = 1) (hs' : D2.contr.size ⟨0, by omega⟩ = H)
    (hlc' : D2.lhsContracting = [1]) (hrc' : D2.rhsContracting = [0])
    (hl0' : ∀ j q, (D2.lhsIdx j q 0).val = (j 0).val) (hr1' : ∀ j q, (D2.rhsIdx j q 1).val = (j 1).val)
    (hb1 : (⟨1, ![H]⟩ : Shape).BroadcastsInDim ⟨2, ![1, H]⟩ ![1])
    (hb1' : (⟨2, ![1, H]⟩ : Shape).BroadcastsInDim ⟨2, ![N, H]⟩ ![0, 1])
    (hz : (⟨0, ![]⟩ : Shape).BroadcastsInDim ⟨2, ![N, H]⟩ ![])
    (hb2 : (⟨1, ![O]⟩ : Shape).BroadcastsInDim ⟨2, ![1, O]⟩ ![1])
    (hb2' : (⟨2, ![1, O]⟩ : Shape).BroadcastsInDim ⟨2, ![N, O]⟩ ![0, 1])
    (x : FVec Ideal ⟨2, ![N, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32) (r : Fin N) (q : Fin O) :
    addf
        (Host.dotGeneral D2 none
          (maximumf
            (addf (Host.dotGeneral D1 none x w1)
              (broadcastInDim ⟨2, ![N, H]⟩ ![0, 1] hb1' (broadcastInDim ⟨2, ![1, H]⟩ ![1] hb1 b1)))
            (broadcastInDim ⟨2, ![N, H]⟩ ![] hz (constant (F := Ideal) ⟨0, ![]⟩ .f32 0x00000000#32)))
          w2)
        (broadcastInDim ⟨2, ![N, O]⟩ ![0, 1] hb2' (broadcastInDim ⟨2, ![1, O]⟩ ![1] hb2 b2)) (ix2 r q)
      = out (fun i => x (ix2 r i)) w1 (fun k => b1 (ix1 k)) w2 (fun q => b2 (ix1 q)) q := by
  rw [addf_apply, LibMatmul2.dotGeneral_apply D2 hr' hs' hlc' hrc' hl0' hr1' none _ w2 r q,
    Cert.HostPat.rowRows_apply hb2' _ r q, Cert.HostPat.row_apply hb2 b2 0 q]
  unfold out
  refine congrArg (· + b2 (ix1 q)) (Finset.sum_congr rfl fun k _ => ?_)
  rw [maximumf_apply, addf_apply, LibMatmul2.dotGeneral_apply D1 hr hs hlc hrc hl0 hr1 none x w1 r k,
    Cert.HostPat.rowRows_apply hb1' _ r k, Cert.HostPat.row_apply hb1 b1 0 k,
    Cert.HostPat.splat_apply _ hz _ (ix2 r k) ix0, constant_apply]
  rfl

/-- The host's whole array IS `rows`, each bias vector laid as a one-row matrix by a change of shape. -/
theorem host_eq_rows {N : ℕ} (D1 : DotDims ⟨2, ![N, I]⟩ ⟨2, ![I, H]⟩ ⟨2, ![N, H]⟩)
    (D2 : DotDims ⟨2, ![N, H]⟩ ⟨2, ![H, O]⟩ ⟨2, ![N, O]⟩)
    (hr : D1.contr.rank = 1) (hs : D1.contr.size ⟨0, by omega⟩ = I)
    (hlc : D1.lhsContracting = [1]) (hrc : D1.rhsContracting = [0])
    (hl0 : ∀ j q, (D1.lhsIdx j q 0).val = (j 0).val) (hr1 : ∀ j q, (D1.rhsIdx j q 1).val = (j 1).val)
    (hr' : D2.contr.rank = 1) (hs' : D2.contr.size ⟨0, by omega⟩ = H)
    (hlc' : D2.lhsContracting = [1]) (hrc' : D2.rhsContracting = [0])
    (hl0' : ∀ j q, (D2.lhsIdx j q 0).val = (j 0).val) (hr1' : ∀ j q, (D2.rhsIdx j q 1).val = (j 1).val)
    (hb1 : (⟨1, ![H]⟩ : Shape).BroadcastsInDim ⟨2, ![1, H]⟩ ![1])
    (hb1' : (⟨2, ![1, H]⟩ : Shape).BroadcastsInDim ⟨2, ![N, H]⟩ ![0, 1])
    (hz : (⟨0, ![]⟩ : Shape).BroadcastsInDim ⟨2, ![N, H]⟩ ![])
    (hb2 : (⟨1, ![O]⟩ : Shape).BroadcastsInDim ⟨2, ![1, O]⟩ ![1])
    (hb2' : (⟨2, ![1, O]⟩ : Shape).BroadcastsInDim ⟨2, ![N, O]⟩ ![0, 1])
    (hc1 : (⟨1, ![H]⟩ : Shape).ShapeCasts ⟨2, ![1, H]⟩) (hc2 : (⟨1, ![O]⟩ : Shape).ShapeCasts ⟨2, ![1, O]⟩)
    (x : FVec Ideal ⟨2, ![N, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32) :
    addf
        (Host.dotGeneral D2 none
          (maximumf
            (addf (Host.dotGeneral D1 none x w1)
              (broadcastInDim ⟨2, ![N, H]⟩ ![0, 1] hb1' (broadcastInDim ⟨2, ![1, H]⟩ ![1] hb1 b1)))
            (broadcastInDim ⟨2, ![N, H]⟩ ![] hz (constant (F := Ideal) ⟨0, ![]⟩ .f32 0x00000000#32)))
          w2)
        (broadcastInDim ⟨2, ![N, O]⟩ ![0, 1] hb2' (broadcastInDim ⟨2, ![1, O]⟩ ![1] hb2 b2))
      = rows x w1 (shapeCast ⟨2, ![1, H]⟩ b1 hc1) w2 (shapeCast ⟨2, ![1, O]⟩ b2 hc2) := by
  funext i
  obtain ⟨r, q, rfl⟩ : ∃ (r : Fin N) (q : Fin O), i = ix2 r q := ⟨i 0, i 1, eq_ix2 i⟩
  rw [host_apply D1 D2 hr hs hlc hrc hl0 hr1 hr' hs' hlc' hrc' hl0' hr1' hb1 hb1' hz hb2 hb2' x w1 b1 w2 b2 r q,
    rows_apply]
  have e1 : (fun k => b1 (ix1 k)) = fun k : Fin H => shapeCast ⟨2, ![1, H]⟩ b1 hc1 (ix2 (0 : Fin 1) k) :=
    funext fun k => (shapeCast_a_1a_apply b1 hc1 (0 : Fin 1) k).symm
  have e2 : (fun q => b2 (ix1 q)) = fun q : Fin O => shapeCast ⟨2, ![1, O]⟩ b2 hc2 (ix2 (0 : Fin 1) q) :=
    funext fun q => (shapeCast_a_1a_apply b2 hc2 (0 : Fin 1) q).symm
  rw [e1, e2]

end Idealize.ShloMosaic.LibEdgeMlp

end
-- ==== Proof.EdgeMlp.lean ====
/-
  The third kernel region — the perceptron over the edges — as one function of the arrays it finds.

  The region walks a hundred blocks of 8000 rows.  At a point it loads the block's rows of the edge features (the two
  end nodes' features side by side), the 128-by-64 and 64-by-2 weight matrices and the two bias rows, and stores
  `max (e · W1 + b1) 0 · W2 + b2` for those rows.  Entry `(p, q)` of that block is the perceptron's `out` of row `p` of
  the block (the body's changes of float format are the identity on the extended reals), row `p` of point `t`'s block is
  row `8000 t + p` of the array, and the hundred blocks of rows tile the output array: so the output array ends
  holding `LibEdgeMlp.rows` of the whole arrays.
-/
import proofs.«115881_j16552803959009_1_alg».proof.Proof.Gen.KernelIdeal.Frame
import proofs.«115881_j16552803959009_1_alg».proof.Proof.LibEdgeMlp
import Idealize.ShloMosaic.Lib.Pipeline.Value
import Idealize.ShloMosaic.Lib.ValueIdx

set_option maxRecDepth 16384

noncomputable section

namespace Cert.KernelIdeal.EdgeMlp

open Cert.KernelIdeal Cert.KernelIdeal.Gen
open Idealize.ShloMosaic Idealize.ShloMosaic.TcCoe Idealize.ShloMosaic.ValueIdx Idealize.SL.Sem
open Idealize.ShloMosaic.Pipeline (Dat Cfg Window)
open Idealize.ShloMosaic.LibEdgeMlp (rows out rows_apply)

/-! ## The two matrix products' records: rows go to rows, columns to columns -/

theorem dot1_row (j : S8000x64.Idx) (q : dot_S8000x128_S128x64_S8000x64_1_0_0_1_n_n.contr.Idx) :
    (dot_S8000x128_S128x64_S8000x64_1_0_0_1_n_n.lhsIdx j q 0).val = (j 0).val := by
  unfold DotDims.lhsIdx
  rw [dif_neg (show ¬(0 : Fin S8000x128.rank) ∈ dot_S8000x128_S128x64_S8000x64_1_0_0_1_n_n.lhsBatch by decide),
    dif_pos (show (0 : Fin S8000x128.rank) ∈ dot_S8000x128_S128x64_S8000x64_1_0_0_1_n_n.lhsNonContracting by decide)]
  rfl

theorem dot1_col (j : S8000x64.Idx) (q : dot_S8000x128_S128x64_S8000x64_1_0_0_1_n_n.contr.Idx) :
    (dot_S8000x128_S128x64_S8000x64_1_0_0_1_n_n.rhsIdx j q 1).val = (j 1).val := by
  unfold DotDims.rhsIdx
  rw [dif_neg (show ¬(1 : Fin S128x64.rank) ∈ dot_S8000x128_S128x64_S8000x64_1_0_0_1_n_n.rhsBatch by decide),
    dif_pos (show (1 : Fin S128x64.rank) ∈ dot_S8000x128_S128x64_S8000x64_1_0_0_1_n_n.rhsNonContracting by decide)]
  rfl

theorem dot2_row (j : S8000x2.Idx) (q : dot_S8000x64_S64x2_S8000x2_1_0_0_1_n_n.contr.Idx) :
    (dot_S8000x64_S64x2_S8000x2_1_0_0_1_n_n.lhsIdx j q 0).val = (j 0).val := by
  unfold DotDims.lhsIdx
  rw [dif_neg (show ¬(0 : Fin S8000x64.rank) ∈ dot_S8000x64_S64x2_S8000x2_1_0_0_1_n_n.lhsBatch by decide),
    dif_pos (show (0 : Fin S8000x64.rank) ∈ dot_S8000x64_S64x2_S8000x2_1_0_0_1_n_n.lhsNonContracting by decide)]
  rfl

theorem dot2_col (j : S8000x2.Idx) (q : dot_S8000x64_S64x2_S8000x2_1_0_0_1_n_n.contr.Idx) :
    (dot_S8000x64_S64x2_S8000x2_1_0_0_1_n_n.rhsIdx j q 1).val = (j 1).val := by
  unfold DotDims.rhsIdx
  rw [dif_neg (show ¬(1 : Fin S64x2.rank) ∈ dot_S8000x64_S64x2_S8000x2_1_0_0_1_n_n.rhsBatch by decide),
    dif_pos (show (1 : Fin S64x2.rank) ∈ dot_S8000x64_S64x2_S8000x2_1_0_0_1_n_n.rhsNonContracting by decide)]
  rfl

/-! ## What the body stores, at an index -/

/-- Entry `(p, q)` of the block the body stores is the perceptron's `out` of row `p` of the block of rows it loaded. -/
theorem pay_apply (x0 : Vec Ideal S8000x128 .f32) (x1 : Vec Ideal S128x64 .f32) (x2 : Vec Ideal S1x64 .f32)
    (x3 : Vec Ideal S64x2 .f32) (x4 : Vec Ideal S1x2 .f32) (p : Fin 8000) (q : Fin 2) :
    k2_pay1 x0 x1 x2 x3 x4 (ix2 p q)
      = out (fun i => x0 (ix2 p i)) x1 (fun k => x2 (ix2 (0 : Fin 1) k)) x3 (fun q => x4 (ix2 (0 : Fin 1) q)) q := by
  unfold k2_pay1
  simp only [shapeCast_self]
  exact LibEdgeMlp.block_apply dot_S8000x128_S128x64_S8000x64_1_0_0_1_n_n dot_S8000x64_S64x2_S8000x2_1_0_0_1_n_n
    rfl rfl rfl rfl dot1_row dot1_col rfl rfl rfl rfl dot2_row dot2_col broadcasts_S1x64_S8000x64 broadcasts_S1x2_S8000x2
    bitsLt_bf16_f32 (truncf .bf16 x0 bitsLt_bf16_f32) (truncf .bf16 x1 bitsLt_bf16_f32) x2
    (truncf .bf16 x3 bitsLt_bf16_f32) x4 p q

/-! ## The region at its entry contents `V` -/

variable (V : (c : Dev nD) → (b : Ref sig .tc) → Buf (Elt Ideal) ((c : Thread nD τ).loc b))

/-- The perceptron of the whole arrays the region finds: what its output array ends holding. -/
abbrev G (c : Dev nD) : S800000x2.Idx → EReal :=
  rows (V c main_v53) (V c main_arg8) (V c main_v54) (V c main_arg10) (V c main_v55)

theorem hz : (![0, 0] : Fin 2 → Nat) = fun _ => 0 := funext fun a => by fin_cases a <;> rfl

/-- The printed index maps, decided over the grid: the edge features and the output move one block of rows per point;
    the weights and the bias rows stay at their one block. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem row_lt (t : Fin cfg2.N) (p : Fin 8000) : 8000 * t.val + p.val < 800000 := by
  have hN : cfg2.N = 100 := N_2
  have := t.isLt; have := p.isLt; omega

/-- Row `p` of point `t`'s block of the edge features is row `8000 t + p` of their array. -/
theorem blk0_apply (c : Dev nD) (t : Fin cfg2.N) (p : Fin 8000) (k : Fin 128) :
    (iblk2 V c 0 t : Vec Ideal S8000x128 .f32) (ix2 p k)
      = (V c main_v53 : S800000x128.Idx → EReal) (ix2 ⟨8000 * t.val + p.val, row_lt t p⟩ k) := by
  obtain ⟨e00, e01, -⟩ := idx_facts t
  unfold iblk2
  rw [View.read_apply]
  show V c main_v53 _ = V c main_v53 _
  refine congrArg (V c main_v53) (funext fun a => Fin.ext ?_)
  match a with
  | ⟨0, _⟩ => show win2_0.index t (0 : Fin 2) * 8000 + 1 * p.val = 8000 * t.val + p.val; rw [e00]; omega
  | ⟨1, _⟩ => show win2_0.index t (1 : Fin 2) * 128 + 1 * k.val = k.val; rw [e01]; omega

/-- Each weight matrix's and each bias row's one block is the array. -/
theorem blk1_eq (c : Dev nD) (t : Fin cfg2.N) :
    (iblk2 V c 1 t : Vec Ideal S128x64 .f32) = (V c main_arg8 : S128x64.Idx → EReal) := by
  obtain ⟨-, -, e0, e1, -⟩ := idx_facts t
  funext y
  unfold iblk2
  rw [View.read_apply]
  show V c main_arg8 _ = V c main_arg8 _
  refine congrArg (V c main_arg8) (funext fun a => Fin.ext ?_)
  match a with
  | ⟨0, _⟩ => show win2_1.index t (0 : Fin 2) * 128 + 1 * (y 0).val = (y 0).val; rw [e0]; omega
  | ⟨1, _⟩ => show win2_1.index t (1 : Fin 2) * 64 + 1 * (y 1).val = (y 1).val; rw [e1]; omega

theorem blk2_eq (c : Dev nD) (t : Fin cfg2.N) :
    (iblk2 V c 2 t : Vec Ideal S1x64 .f32) = (V c main_v54 : S1x64.Idx → EReal) := by
  obtain ⟨-, -, -, -, e0, e1, -⟩ := idx_facts t
  funext y
  unfold iblk2
  rw [View.read_apply]
  show V c main_v54 _ = V c main_v54 _
  refine congrArg (V c main_v54) (funext fun a => Fin.ext ?_)
  match a with
  | ⟨0, _⟩ => show win2_2.index t (0 : Fin 2) * 1 + 1 * (y 0).val = (y 0).val; rw [e0]; omega
  | ⟨1, _⟩ => show win2_2.index t (1 : Fin 2) * 64 + 1 * (y 1).val = (y 1).val; rw [e1]; omega

theorem blk3_eq (c : Dev nD) (t : Fin cfg2.N) :
    (iblk2 V c 3 t : Vec Ideal S64x2 .f32) = (V c main_arg10 : S64x2.Idx → EReal) := by
  obtain ⟨-, -, -, -, -, -, e0, e1, -⟩ := idx_facts t
  funext y
  unfold iblk2
  rw [View.read_apply]
  show V c main_arg10 _ = V c main_arg10 _
  refine congrArg (V c main_arg10) (funext fun a => Fin.ext ?_)
  match a with
  | ⟨0, _⟩ => show win2_3.index t (0 : Fin 2) * 64 + 1 * (y 0).val = (y 0).val; rw [e0]; omega
  | ⟨1, _⟩ => show win2_3.index t (1 : Fin 2) * 2 + 1 * (y 1).val = (y 1).val; rw [e1]; omega

theorem blk4_eq (c : Dev nD) (t : Fin cfg2.N) :
    (iblk2 V c 4 t : Vec Ideal S1x2 .f32) = (V c main_v55 : S1x2.Idx → EReal) := by
  obtain ⟨-, -, -, -, -, -, -, -, e0, e1, -⟩ := idx_facts t
  funext y
  unfold iblk2
  rw [View.read_apply]
  show V c main_v55 _ = V c main_v55 _
  refine congrArg (V c main_v55) (funext fun a => Fin.ext ?_)
  match a with
  | ⟨0, _⟩ => show win2_4.index t (0 : Fin 2) * 1 + 1 * (y 0).val = (y 0).val; rw [e0]; omega
  | ⟨1, _⟩ => show win2_4.index t (1 : Fin 2) * 2 + 1 * (y 1).val = (y 1).val; rw [e1]; omega

/-- Entry `(p, q)` of point `t`'s output block sits at row `8000 t + p` of the output array. -/
theorem emb5 (t : Fin cfg2.N) (p : Fin 8000) (q : Fin 2) :
    ((cfg2.win 5).blk t).view.emb (ix2 p q) = (ix2 ⟨8000 * t.val + p.val, row_lt t p⟩ q : S800000x2.Idx) := by
  obtain ⟨-, -, -, -, -, -, -, -, -, -, e50, e51⟩ := idx_facts t
  funext a
  apply Fin.ext
  match a with
  | ⟨0, _⟩ => show win2_5.index t (0 : Fin 2) * 8000 + 1 * p.val = 8000 * t.val + p.val; rw [e50]; omega
  | ⟨1, _⟩ => show win2_5.index t (1 : Fin 2) * 2 + 1 * q.val = q.val; rw [e51]; omega

/-- WHAT POINT `t` WRITES BACK is block `t` of the perceptron of the whole arrays: a row of the result depends on the
    same row of the edge features only. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S8000x128) hz, View.ld_unit_zero (S := S128x64) hz, View.ld_unit_zero (S := S1x64) hz,
    View.ld_unit_zero (S := S64x2) hz, View.ld_unit_zero (S := S1x2) hz]
  funext y
  obtain ⟨p, q, rfl⟩ : ∃ (p : Fin 8000) (q : Fin 2), y = ix2 p q := ⟨y 0, y 1, eq_ix2 y⟩
  refine (pay_apply (iblk2 V c 0 t) (iblk2 V c 1 t) (iblk2 V c 2 t) (iblk2 V c 3 t) (iblk2 V c 4 t) p q).trans ?_
  rw [View.read_apply, emb5 t p q]
  show _ = rows (V c main_v53) (V c main_arg8) (V c main_v54) (V c main_arg10) (V c main_v55) (ix2 ⟨8000 * t.val + p.val, row_lt t p⟩ q)
  rw [rows_apply, blk1_eq V c t, blk2_eq V c t, blk3_eq V c t, blk4_eq V c t]
  have e0 : (fun k : Fin 128 => (iblk2 V c 0 t : Vec Ideal S8000x128 .f32) (ix2 p k))
      = fun k => (V c main_v53 : S800000x128.Idx → EReal) (ix2 ⟨8000 * t.val + p.val, row_lt t p⟩ k) :=
    funext fun k => blk0_apply V c t p k
  rw [e0]

/-- An index of the output array is in point `t`'s block iff each coordinate is in the block's range on its axis. -/
theorem mem_blk (t : Fin cfg2.N) (i : S800000x2.Idx) :
    i ∈ ((cfg2.win 5).blk t).view.set ↔ ∀ a : Fin 2, win2_5.index t a * S8000x2.size a ≤ (i a).val ∧ (i a).val < win2_5.index t a * S8000x2.size a + S8000x2.size a := by
  show i ∈ ((View.whole main_v56).slice (win2_5.rect t)).set ↔ _
  rw [View.set_slice_whole, Rect.mem_set_unit]
  exact Iff.rfl

/-- The blocks of rows tile the output array: row `r` is in the block of point `r / 8000`. -/
theorem cover (i : S800000x2.Idx) :
    ∃ t : Fin cfg2.N, (cfg2.win 5).flush t = true ∧ i ∈ ((cfg2.win 5).blk t).view.set := by
  have h0 : (i 0).val < 800000 := (i 0).isLt
  have h1 : (i 1).val < 2 := (i 1).isLt
  have hN : cfg2.N = 100 := N_2
  refine ⟨⟨(i 0).val / 8000, by omega⟩, flush2_5 _, ?_⟩
  obtain ⟨-, -, -, -, -, -, -, -, -, -, e50, e51⟩ := idx_facts ⟨(i 0).val / 8000, by omega⟩
  rw [mem_blk]
  intro a
  match a with
  | ⟨0, _⟩ =>
    show win2_5.index _ (0 : Fin 2) * 8000 ≤ (i 0).val ∧ (i 0).val < win2_5.index _ (0 : Fin 2) * 8000 + 8000
    rw [e50]; show (i 0).val / 8000 * 8000 ≤ (i 0).val ∧ (i 0).val < (i 0).val / 8000 * 8000 + 8000; omega
  | ⟨1, _⟩ =>
    show win2_5.index _ (1 : Fin 2) * 2 ≤ (i 1).val ∧ (i 1).val < win2_5.index _ (1 : Fin 2) * 2 + 2
    rw [e51]; omega

/-- THE OUTPUT ARRAY after the region: the perceptron of the arrays the region found. -/
theorem final (c : Dev nD) : (dat2 V c).arrAt 5 cfg2.N = G V c :=
  (dat2 V c).arrAt_eq_of_cover 5 (G V c) (fun t _ => flushed_eq V c t) cover

end Cert.KernelIdeal.EdgeMlp

end
-- ==== Proof.RefValue.lean ====
/-
  The reference, stage by stage, in the layers' own words.

  The reference computes each graph-convolution layer on the host as a product, the bias laid as a row and repeated,
  the other product, and a rectifier, and the perceptron over the edges the same way.  Each of those stages, as a
  function of the stages before it, is the layer's row function applied to every row (`LibSageLayer.rows`,
  `LibEdgeMlp.rows`): for the two convolution layers by commuting the bias past the second product — addition of
  extended reals is commutative and associative —, for the perceptron with no rearrangement at all.  The stages that
  gather along the edges, add into the nodes, count and divide are left as they stand: the kernel's program applies
  the very same operations.
-/
import proofs.«115881_j16552803959009_1_alg».proof.Proof.Gen.ReferenceIdeal.Read
import proofs.«115881_j16552803959009_1_alg».proof.Proof.LibSageLayer
import proofs.«115881_j16552803959009_1_alg».proof.Proof.LibEdgeMlp

noncomputable section

namespace Cert.ReferenceIdeal.RefValue

open Cert.ReferenceIdeal Cert.ReferenceIdeal.Gen Cert.ReferenceIdeal.Read
open Idealize.ShloMosaic Idealize.ShloMosaic.TcCoe

/-- The first layer's output is the layer function of the averaged neighbour features and the node features. -/
theorem layer1 (hc : (⟨1, ![64]⟩ : Shape).ShapeCasts ⟨2, ![1, 64]⟩) (x0 : (⟨S50000x128, .f32⟩ : BufTy).Contents (Elt Ideal)) (x1 : (⟨S2x800000, .i32⟩ : BufTy).Contents (Elt Ideal)) (x2 : (⟨S128x64, .f32⟩ : BufTy).Contents (Elt Ideal)) (x3 : (⟨S64, .f32⟩ : BufTy).Contents (Elt Ideal)) (x4 : (⟨S128x64, .f32⟩ : BufTy).Contents (Elt Ideal)) :
    val_main_v29 (F := Ideal) x0 x1 x2 x3 x4
      = LibSageLayer.rows (val_main_v22 (F := Ideal) x0 x1) x0 x2 x4 (shapeCast ⟨2, ![1, 64]⟩ x3 hc) := by
  unfold val_main_v29 val_main_v28 val_main_v26 val_main_v27 val_main_v25 val_main_v24 val_main_v23 val_main_call0_v0
    val_main_call0_cst
  exact LibSageLayer.host_eq_rows dot_S50000x128_S128x64_S50000x64_1_0_0_1_n_n rfl rfl rfl rfl lhs_main_v23_0 rhs_main_v23_1
    bcast_S64_S1x64_1 bcast_S1x64_S50000x64_0_1 bcast_S_S50000x64 hc (val_main_v22 (F := Ideal) x0 x1) x0 x2 x4 x3

/-- The second layer's output is the layer function of its averaged neighbour features and the first layer's output. -/
theorem layer2 (hc : (⟨1, ![64]⟩ : Shape).ShapeCasts ⟨2, ![1, 64]⟩) (x0 : (⟨S50000x128, .f32⟩ : BufTy).Contents (Elt Ideal)) (x1 : (⟨S2x800000, .i32⟩ : BufTy).Contents (Elt Ideal)) (x2 : (⟨S128x64, .f32⟩ : BufTy).Contents (Elt Ideal)) (x3 : (⟨S64, .f32⟩ : BufTy).Contents (Elt Ideal)) (x4 : (⟨S128x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) :
    val_main_v55 (F := Ideal) x0 x1 x2 x3 x4 x5 x6 x7
      = LibSageLayer.rows (val_main_v48 (F := Ideal) x0 x1 x2 x3 x4) (val_main_v29 (F := Ideal) x0 x1 x2 x3 x4) x5 x7
          (shapeCast ⟨2, ![1, 64]⟩ x6 hc) := by
  unfold val_main_v55 val_main_v54 val_main_v52 val_main_v53 val_main_v51 val_main_v50 val_main_v49 val_main_call1_v0
    val_main_call1_cst
  exact LibSageLayer.host_eq_rows dot_S50000x64_S64x64_S50000x64_1_0_0_1_n_n rfl rfl rfl rfl lhs_main_v49_0 rhs_main_v49_1
    bcast_S64_S1x64_1 bcast_S1x64_S50000x64_0_1 bcast_S_S50000x64 hc (val_main_v48 (F := Ideal) x0 x1 x2 x3 x4)
    (val_main_v29 (F := Ideal) x0 x1 x2 x3 x4) x5 x7 x6

/-- The result is the perceptron of the edge features. -/
theorem edgeMlp (hc1 : (⟨1, ![64]⟩ : Shape).ShapeCasts ⟨2, ![1, 64]⟩) (hc2 : (⟨1, ![2]⟩ : Shape).ShapeCasts ⟨2, ![1, 2]⟩) (x0 : (⟨S50000x128, .f32⟩ : BufTy).Contents (Elt Ideal)) (x1 : (⟨S2x800000, .i32⟩ : BufTy).Contents (Elt Ideal)) (x2 : (⟨S128x64, .f32⟩ : BufTy).Contents (Elt Ideal)) (x3 : (⟨S64, .f32⟩ : BufTy).Contents (Elt Ideal)) (x4 : (⟨S128x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S128x64, .f32⟩ : BufTy).Contents (Elt Ideal)) (x9 : (⟨S64, .f32⟩ : BufTy).Contents (Elt Ideal)) (x10 : (⟨S64x2, .f32⟩ : BufTy).Contents (Elt Ideal)) (x11 : (⟨S2, .f32⟩ : BufTy).Contents (Elt Ideal)) :
    val_main_v79 (F := Ideal) x0 x1 x2 x3 x4 x5 x6 x7 x8 x9 x10 x11
      = LibEdgeMlp.rows (val_main_v70 (F := Ideal) x0 x1 x2 x3 x4 x5 x6 x7) x8 (shapeCast ⟨2, ![1, 64]⟩ x9 hc1) x10
          (shapeCast ⟨2, ![1, 2]⟩ x11 hc2) := by
  unfold val_main_v79 val_main_v78 val_main_v77 val_main_v76 val_main_v75 val_main_v74 val_main_v73 val_main_v72 val_main_v71
    val_main_call2_v0 val_main_call2_cst
  exact LibEdgeMlp.host_eq_rows dot_S800000x128_S128x64_S800000x64_1_0_0_1_n_n dot_S800000x64_S64x2_S800000x2_1_0_0_1_n_n
    rfl rfl rfl rfl lhs_main_v71_0 rhs_main_v71_1 rfl rfl rfl rfl lhs_main_v76_0 rhs_main_v76_1
    bcast_S64_S1x64_1 bcast_S1x64_S800000x64_0_1 bcast_S_S800000x64 bcast_S2_S1x2_1 bcast_S1x2_S800000x2_0_1 hc1 hc2
    (val_main_v70 (F := Ideal) x0 x1 x2 x3 x4 x5 x6 x7) x8 x9 x10 x11

end Cert.ReferenceIdeal.RefValue

end
-- ==== Proof.KernelValue.lean ====
/-
  The idealized kernel's result array as the reference's own stages.

  The program alternates stretches of host operations with three kernel regions.  The buffer contents at the six
  boundaries (`W1` … `W6` of the frame proof) are read here one boundary at a time, each buffer the later steps use:
  a host stretch's results are its operations applied to the contents before it; a region leaves every buffer but
  its output array alone, and its output array at the layer function of the arrays it found (`Layer1.final`,
  `Layer2.final`, `EdgeMlp.final`).  The host operations — slicing the edge list, gathering along the edges, adding
  into the nodes, counting, dividing, joining the two ends' features — are the reference's own, so each buffer is
  the reference's stage of the same name applied to the argument arrays, and where a layer function appears the
  reference's stage is that function too (`RefValue.layer1`, `layer2`, `edgeMlp`).  The second layer's divisor is
  the first layer's count column carried across the first region, where the reference counts again: the same
  operations on the same edge list.
-/
import proofs.«115881_j16552803959009_1_alg».proof.Proof.Gen.KernelIdeal.Frame
import proofs.«115881_j16552803959009_1_alg».proof.Proof.Layer1
import proofs.«115881_j16552803959009_1_alg».proof.Proof.Layer2
import proofs.«115881_j16552803959009_1_alg».proof.Proof.EdgeMlp
import proofs.«115881_j16552803959009_1_alg».proof.Proof.RefValue
import Idealize.ShloMosaic.Lib.StableHlo.Run

set_option maxRecDepth 16384

noncomputable section

namespace Cert.KernelIdeal.KernelValue

open Cert.KernelIdeal Cert.KernelIdeal.Gen
open Idealize.ShloMosaic Idealize.ShloMosaic.TcCoe Idealize.SL.Sem Idealize.ShloMosaic.StableHlo
open Cert.ReferenceIdeal.Read (val_main_v1 val_main_v3 val_main_v20 val_main_v22 val_main_v29 val_main_v48 val_main_v55 val_main_v70 val_main_v79)

variable (m : (ℓ : Loc nD τ sig) → Buf (Elt Ideal) ℓ) (ρ : Dev nD → PrngReg) (c : Dev nD)

/-! ## The argument arrays, at the types the reference's stages take them -/

abbrev a0 : (⟨Cert.ReferenceIdeal.S50000x128, .f32⟩ : BufTy).Contents (Elt Ideal) := m ((c.tc : Thread nD τ).loc main_arg0)
abbrev a1 : (⟨Cert.ReferenceIdeal.S2x800000, .i32⟩ : BufTy).Contents (Elt Ideal) := m ((c.tc : Thread nD τ).loc main_arg1)
abbrev a2 : (⟨Cert.ReferenceIdeal.S128x64, .f32⟩ : BufTy).Contents (Elt Ideal) := m ((c.tc : Thread nD τ).loc main_arg2)
abbrev a3 : (⟨Cert.ReferenceIdeal.S64, .f32⟩ : BufTy).Contents (Elt Ideal) := m ((c.tc : Thread nD τ).loc main_arg3)
abbrev a4 : (⟨Cert.ReferenceIdeal.S128x64, .f32⟩ : BufTy).Contents (Elt Ideal) := m ((c.tc : Thread nD τ).loc main_arg4)
abbrev a5 : (⟨Cert.ReferenceIdeal.S64x64, .f32⟩ : BufTy).Contents (Elt Ideal) := m ((c.tc : Thread nD τ).loc main_arg5)
abbrev a6 : (⟨Cert.ReferenceIdeal.S64, .f32⟩ : BufTy).Contents (Elt Ideal) := m ((c.tc : Thread nD τ).loc main_arg6)
abbrev a7 : (⟨Cert.ReferenceIdeal.S64x64, .f32⟩ : BufTy).Contents (Elt Ideal) := m ((c.tc : Thread nD τ).loc main_arg7)
abbrev a8 : (⟨Cert.ReferenceIdeal.S128x64, .f32⟩ : BufTy).Contents (Elt Ideal) := m ((c.tc : Thread nD τ).loc main_arg8)
abbrev a9 : (⟨Cert.ReferenceIdeal.S64, .f32⟩ : BufTy).Contents (Elt Ideal) := m ((c.tc : Thread nD τ).loc main_arg9)
abbrev a10 : (⟨Cert.ReferenceIdeal.S64x2, .f32⟩ : BufTy).Contents (Elt Ideal) := m ((c.tc : Thread nD τ).loc main_arg10)
abbrev a11 : (⟨Cert.ReferenceIdeal.S2, .f32⟩ : BufTy).Contents (Elt Ideal) := m ((c.tc : Thread nD τ).loc main_arg11)

/-! ## Boundary 1: after the first host stretch -/

theorem w1_v1 : W1 m ρ c (Proc.devRef .tc main_v1) = val_main_v1 (F := Ideal) (a1 m c) := by
  show StableHlo.after hostOps0 (W0 m ρ c) (Proc.devRef .tc main_v1) = _
  after_results_simp <;> rfl
theorem w1_v3 : W1 m ρ c (Proc.devRef .tc main_v3) = val_main_v3 (F := Ideal) (a1 m c) := by
  show StableHlo.after hostOps0 (W0 m ρ c) (Proc.devRef .tc main_v3) = _
  after_results_simp <;> rfl
theorem w1_v20 : W1 m ρ c (Proc.devRef .tc main_v20) = val_main_v20 (F := Ideal) (a1 m c) := by
  show StableHlo.after hostOps0 (W0 m ρ c) (Proc.devRef .tc main_v20) = _
  after_results_simp <;> rfl
theorem w1_v22 : W1 m ρ c (Proc.devRef .tc main_v22) = val_main_v22 (F := Ideal) (a0 m c) (a1 m c) := by
  show StableHlo.after hostOps0 (W0 m ρ c) (Proc.devRef .tc main_v22) = _
  after_results_simp <;> rfl
theorem w1_v23 : W1 m ρ c (Proc.devRef .tc main_v23) = shapeCast S1x64 (a3 m c) shapeCasts_S64_S1x64 := by
  show StableHlo.after hostOps0 (W0 m ρ c) (Proc.devRef .tc main_v23) = _
  after_results_simp <;> rfl
theorem w1_arg0 : W1 m ρ c (Proc.devRef .tc main_arg0) = a0 m c := by
  show StableHlo.after hostOps0 (W0 m ρ c) (Proc.devRef .tc main_arg0) = _
  after_results_simp <;> rfl
theorem w1_arg2 : W1 m ρ c (Proc.devRef .tc main_arg2) = a2 m c := by
  show StableHlo.after hostOps0 (W0 m ρ c) (Proc.devRef .tc main_arg2) = _
  after_results_simp <;> rfl
theorem w1_arg4 : W1 m ρ c (Proc.devRef .tc main_arg4) = a4 m c := by
  show StableHlo.after hostOps0 (W0 m ρ c) (Proc.devRef .tc main_arg4) = _
  after_results_simp <;> rfl
theorem w1_arg5 : W1 m ρ c (Proc.devRef .tc main_arg5) = a5 m c := by
  show StableHlo.after hostOps0 (W0 m ρ c) (Proc.devRef .tc main_arg5) = _
  after_results_simp <;> rfl
theorem w1_arg6 : W1 m ρ c (Proc.devRef .tc main_arg6) = a6 m c := by
  show StableHlo.after hostOps0 (W0 m ρ c) (Proc.devRef .tc main_arg6) = _
  after_results_simp <;> rfl
theorem w1_arg7 : W1 m ρ c (Proc.devRef .tc main_arg7) = a7 m c := by
  show StableHlo.after hostOps0 (W0 m ρ c) (Proc.devRef .tc main_arg7) = _
  after_results_simp <;> rfl
theorem w1_arg8 : W1 m ρ c (Proc.devRef .tc main_arg8) = a8 m c := by
  show StableHlo.after hostOps0 (W0 m ρ c) (Proc.devRef .tc main_arg8) = _
  after_results_simp <;> rfl
theorem w1_arg9 : W1 m ρ c (Proc.devRef .tc main_arg9) = a9 m c := by
  show StableHlo.after hostOps0 (W0 m ρ c) (Proc.devRef .tc main_arg9) = _
  after_results_simp <;> rfl
theorem w1_arg10 : W1 m ρ c (Proc.devRef .tc main_arg10) = a10 m c := by
  show StableHlo.after hostOps0 (W0 m ρ c) (Proc.devRef .tc main_arg10) = _
  after_results_simp <;> rfl
theorem w1_arg11 : W1 m ρ c (Proc.devRef .tc main_arg11) = a11 m c := by
  show StableHlo.after hostOps0 (W0 m ρ c) (Proc.devRef .tc main_arg11) = _
  after_results_simp <;> rfl

/-! ## Boundary 2: after the first region -/

/-- The first region's output array: the first layer's output, which is the reference's stage. -/
theorem w2_v24 : W2 m ρ c (Proc.devRef .tc main_v24) = val_main_v29 (F := Ideal) (a0 m c) (a1 m c) (a2 m c) (a3 m c) (a4 m c) := by
  refine ((W2_arr m ρ c 5).trans (Layer1.final (V1 m ρ) c)).trans ?_
  show LibSageLayer.rows (W1 m ρ c (Proc.devRef .tc main_v22)) (W1 m ρ c (Proc.devRef .tc main_arg0)) (W1 m ρ c (Proc.devRef .tc main_arg2))
    (W1 m ρ c (Proc.devRef .tc main_arg4)) (W1 m ρ c (Proc.devRef .tc main_v23)) = _
  rw [w1_v22, w1_arg0, w1_arg2, w1_arg4, w1_v23]
  exact (Cert.ReferenceIdeal.RefValue.layer1 shapeCasts_S64_S1x64 (a0 m c) (a1 m c) (a2 m c) (a3 m c) (a4 m c)).symm
theorem w2_v1 : W2 m ρ c (Proc.devRef .tc main_v1) = val_main_v1 (F := Ideal) (a1 m c) :=
  (W2_of_ne m ρ c main_v1 (by decide)).trans (w1_v1 m ρ c)
theorem w2_v3 : W2 m ρ c (Proc.devRef .tc main_v3) = val_main_v3 (F := Ideal) (a1 m c) :=
  (W2_of_ne m ρ c main_v3 (by decide)).trans (w1_v3 m ρ c)
theorem w2_v20 : W2 m ρ c (Proc.devRef .tc main_v20) = val_main_v20 (F := Ideal) (a1 m c) :=
  (W2_of_ne m ρ c main_v20 (by decide)).trans (w1_v20 m ρ c)
theorem w2_arg5 : W2 m ρ c (Proc.devRef .tc main_arg5) = a5 m c :=
  (W2_of_ne m ρ c main_arg5 (by decide)).trans (w1_arg5 m ρ c)
theorem w2_arg6 : W2 m ρ c (Proc.devRef .tc main_arg6) = a6 m c :=
  (W2_of_ne m ρ c main_arg6 (by decide)).trans (w1_arg6 m ρ c)
theorem w2_arg7 : W2 m ρ c (Proc.devRef .tc main_arg7) = a7 m c :=
  (W2_of_ne m ρ c main_arg7 (by decide)).trans (w1_arg7 m ρ c)
theorem w2_arg8 : W2 m ρ c (Proc.devRef .tc main_arg8) = a8 m c :=
  (W2_of_ne m ρ c main_arg8 (by decide)).trans (w1_arg8 m ρ c)
theorem w2_arg9 : W2 m ρ c (Proc.devRef .tc main_arg9) = a9 m c :=
  (W2_of_ne m ρ c main_arg9 (by decide)).trans (w1_arg9 m ρ c)
theorem w2_arg10 : W2 m ρ c (Proc.devRef .tc main_arg10) = a10 m c :=
  (W2_of_ne m ρ c main_arg10 (by decide)).trans (w1_arg10 m ρ c)
theorem w2_arg11 : W2 m ρ c (Proc.devRef .tc main_arg11) = a11 m c :=
  (W2_of_ne m ρ c main_arg11 (by decide)).trans (w1_arg11 m ρ c)

/-! ## Boundary 3: after the second host stretch -/

/-- The second layer's averaged neighbour features: gathered from the first layer's output along the edges, added
    into the nodes, divided by the carried count column. -/
theorem w3_v36 : W3 m ρ c (Proc.devRef .tc main_v36) = val_main_v48 (F := Ideal) (a0 m c) (a1 m c) (a2 m c) (a3 m c) (a4 m c) := by
  show StableHlo.after hostOps1 (W2 m ρ c) (Proc.devRef .tc main_v36) = _
  after_results_simp
  rw [w2_v24 m ρ c, w2_v1 m ρ c, w2_v3 m ρ c, w2_v20 m ρ c]
  rfl
theorem w3_v37 : W3 m ρ c (Proc.devRef .tc main_v37) = shapeCast S1x64 (a6 m c) shapeCasts_S64_S1x64 := by
  show StableHlo.after hostOps1 (W2 m ρ c) (Proc.devRef .tc main_v37) = _
  after_results_simp
  rw [w2_arg6 m ρ c]
  rfl
theorem w3_v24 : W3 m ρ c (Proc.devRef .tc main_v24) = val_main_v29 (F := Ideal) (a0 m c) (a1 m c) (a2 m c) (a3 m c) (a4 m c) := by
  show StableHlo.after hostOps1 (W2 m ρ c) (Proc.devRef .tc main_v24) = _
  after_results_simp
  exact w2_v24 m ρ c
theorem w3_arg5 : W3 m ρ c (Proc.devRef .tc main_arg5) = a5 m c := by
  show StableHlo.after hostOps1 (W2 m ρ c) (Proc.devRef .tc main_arg5) = _
  after_results_simp
  exact w2_arg5 m ρ c
theorem w3_arg7 : W3 m ρ c (Proc.devRef .tc main_arg7) = a7 m c := by
  show StableHlo.after hostOps1 (W2 m ρ c) (Proc.devRef .tc main_arg7) = _
  after_results_simp
  exact w2_arg7 m ρ c
theorem w3_v1 : W3 m ρ c (Proc.devRef .tc main_v1) = val_main_v1 (F := Ideal) (a1 m c) := by
  show StableHlo.after hostOps1 (W2 m ρ c) (Proc.devRef .tc main_v1) = _
  after_results_simp
  exact w2_v1 m ρ c
theorem w3_v3 : W3 m ρ c (Proc.devRef .tc main_v3) = val_main_v3 (F := Ideal) (a1 m c) := by
  show StableHlo.after hostOps1 (W2 m ρ c) (Proc.devRef .tc main_v3) = _
  after_results_simp
  exact w2_v3 m ρ c
theorem w3_arg8 : W3 m ρ c (Proc.devRef .tc main_arg8) = a8 m c := by
  show StableHlo.after hostOps1 (W2 m ρ c) (Proc.devRef .tc main_arg8) = _
  after_results_simp
  exact w2_arg8 m ρ c
theorem w3_arg9 : W3 m ρ c (Proc.devRef .tc main_arg9) = a9 m c := by
  show StableHlo.after hostOps1 (W2 m ρ c) (Proc.devRef .tc main_arg9) = _
  after_results_simp
  exact w2_arg9 m ρ c
theorem w3_arg10 : W3 m ρ c (Proc.devRef .tc main_arg10) = a10 m c := by
  show StableHlo.after hostOps1 (W2 m ρ c) (Proc.devRef .tc main_arg10) = _
  after_results_simp
  exact w2_arg10 m ρ c
theorem w3_arg11 : W3 m ρ c (Proc.devRef .tc main_arg11) = a11 m c := by
  show StableHlo.after hostOps1 (W2 m ρ c) (Proc.devRef .tc main_arg11) = _
  after_results_simp
  exact w2_arg11 m ρ c

/-! ## Boundary 4: after the second region -/

/-- The second region's output array: the second layer's output, which is the reference's stage. -/
theorem w4_v38 : W4 m ρ c (Proc.devRef .tc main_v38) = val_main_v55 (F := Ideal) (a0 m c) (a1 m c) (a2 m c) (a3 m c) (a4 m c) (a5 m c) (a6 m c) (a7 m c) := by
  refine ((W4_arr m ρ c 5).trans (Layer2.final (V3 m ρ) c)).trans ?_
  show LibSageLayer.rows (W3 m ρ c (Proc.devRef .tc main_v36)) (W3 m ρ c (Proc.devRef .tc main_v24)) (W3 m ρ c (Proc.devRef .tc main_arg5))
    (W3 m ρ c (Proc.devRef .tc main_arg7)) (W3 m ρ c (Proc.devRef .tc main_v37)) = _
  rw [w3_v36, w3_v24, w3_arg5, w3_arg7, w3_v37]
  exact (Cert.ReferenceIdeal.RefValue.layer2 shapeCasts_S64_S1x64 (a0 m c) (a1 m c) (a2 m c) (a3 m c) (a4 m c) (a5 m c) (a6 m c) (a7 m c)).symm
theorem w4_v1 : W4 m ρ c (Proc.devRef .tc main_v1) = val_main_v1 (F := Ideal) (a1 m c) :=
  (W4_of_ne m ρ c main_v1 (by decide)).trans (w3_v1 m ρ c)
theorem w4_v3 : W4 m ρ c (Proc.devRef .tc main_v3) = val_main_v3 (F := Ideal) (a1 m c) :=
  (W4_of_ne m ρ c main_v3 (by decide)).trans (w3_v3 m ρ c)
theorem w4_arg8 : W4 m ρ c (Proc.devRef .tc main_arg8) = a8 m c :=
  (W4_of_ne m ρ c main_arg8 (by decide)).trans (w3_arg8 m ρ c)
theorem w4_arg9 : W4 m ρ c (Proc.devRef .tc main_arg9) = a9 m c :=
  (W4_of_ne m ρ c main_arg9 (by decide)).trans (w3_arg9 m ρ c)
theorem w4_arg10 : W4 m ρ c (Proc.devRef .tc main_arg10) = a10 m c :=
  (W4_of_ne m ρ c main_arg10 (by decide)).trans (w3_arg10 m ρ c)
theorem w4_arg11 : W4 m ρ c (Proc.devRef .tc main_arg11) = a11 m c :=
  (W4_of_ne m ρ c main_arg11 (by decide)).trans (w3_arg11 m ρ c)

/-! ## Boundary 5: after the third host stretch -/

/-- The edge features: the second layer's output gathered at each edge's two ends, side by side. -/
theorem w5_v53 : W5 m ρ c (Proc.devRef .tc main_v53) = val_main_v70 (F := Ideal) (a0 m c) (a1 m c) (a2 m c) (a3 m c) (a4 m c) (a5 m c) (a6 m c) (a7 m c) := by
  show StableHlo.after hostOps2 (W4 m ρ c) (Proc.devRef .tc main_v53) = _
  after_results_simp
  unfold val_main_v70
  refine congrArg₂ (fun a b => concatenate S800000x128 1 [⟨S800000x64, a⟩, ⟨S800000x64, b⟩]
    concatenates_S800000x64_S800000x64_S800000x128_d1) ?_ ?_
  · after_results_simp
    rw [w4_v38 m ρ c, w4_v1 m ρ c]
    rfl
  · after_results_simp
    rw [w4_v38 m ρ c, w4_v3 m ρ c]
    rfl
theorem w5_v54 : W5 m ρ c (Proc.devRef .tc main_v54) = shapeCast S1x64 (a9 m c) shapeCasts_S64_S1x64 := by
  show StableHlo.after hostOps2 (W4 m ρ c) (Proc.devRef .tc main_v54) = _
  after_results_simp
  rw [w4_arg9 m ρ c]
  rfl
theorem w5_v55 : W5 m ρ c (Proc.devRef .tc main_v55) = shapeCast S1x2 (a11 m c) shapeCasts_S2_S1x2 := by
  show StableHlo.after hostOps2 (W4 m ρ c) (Proc.devRef .tc main_v55) = _
  after_results_simp
  rw [w4_arg11 m ρ c]
  rfl
theorem w5_arg8 : W5 m ρ c (Proc.devRef .tc main_arg8) = a8 m c := by
  show StableHlo.after hostOps2 (W4 m ρ c) (Proc.devRef .tc main_arg8) = _
  after_results_simp
  exact w4_arg8 m ρ c
theorem w5_arg10 : W5 m ρ c (Proc.devRef .tc main_arg10) = a10 m c := by
  show StableHlo.after hostOps2 (W4 m ρ c) (Proc.devRef .tc main_arg10) = _
  after_results_simp
  exact w4_arg10 m ρ c

/-! ## Boundary 6: after the third region -/

/-- THE RESULT ARRAY after the run is the reference's result stage of the argument arrays. -/
theorem result : W6 m ρ c (Proc.devRef .tc main_v56) = val_main_v79 (F := Ideal) (a0 m c) (a1 m c) (a2 m c) (a3 m c) (a4 m c) (a5 m c) (a6 m c) (a7 m c) (a8 m c) (a9 m c) (a10 m c) (a11 m c) := by
  refine ((W6_arr m ρ c 5).trans (EdgeMlp.final (V5 m ρ) c)).trans ?_
  show LibEdgeMlp.rows (W5 m ρ c (Proc.devRef .tc main_v53)) (W5 m ρ c (Proc.devRef .tc main_arg8)) (W5 m ρ c (Proc.devRef .tc main_v54))
    (W5 m ρ c (Proc.devRef .tc main_arg10)) (W5 m ρ c (Proc.devRef .tc main_v55)) = _
  rw [w5_v53, w5_arg8, w5_v54, w5_arg10, w5_v55]
  exact (Cert.ReferenceIdeal.RefValue.edgeMlp shapeCasts_S64_S1x64 shapeCasts_S2_S1x2 (a0 m c) (a1 m c) (a2 m c) (a3 m c) (a4 m c) (a5 m c) (a6 m c) (a7 m c) (a8 m c) (a9 m c) (a10 m c) (a11 m c)).symm

end Cert.KernelIdeal.KernelValue

end
-- ==== Proof.lean ====
/-
  A two-layer graph convolution followed by a perceptron over the edges: the kernel's program against its reference,
  on the extended reals.

  With `x` the node features, `src`, `dst` the two rows of the edge list, and for a node `r` the mean of a feature
  array over the edges that end at `r` (the sum gathered along the edges and added into the nodes, divided by
  `max (number of such edges) 1`), both programs compute
    h1 = max (mean x · W1l + x · W1r + b1l) 0,      h2 = max (mean h1 · W2l + h1 · W2r + b2l) 0,
    out e = max ([h2 (src e), h2 (dst e)] · Wm1 + bm1) 0 · Wm2 + bm2.
  The reference does everything on the host.  The kernel's program does the gathering, adding, counting and dividing
  on the host with the reference's very operations, and each of the three matrix stages in a kernel region tiled over
  the rows, its operands passing through a narrower float format on the way into the products.  On the extended
  reals a change of float format is the identity and a product is its exact sum, so each region's output array is the
  stage's row function applied to every row of the arrays it finds (`Layer1`, `Layer2`, `EdgeMlp`: a block of rows of
  the result depends on the same rows of the inputs only, and the blocks tile the array), and the reference's stage
  is the same function (`RefValue`): for the two convolution layers after commuting the bias past the second product,
  which addition of extended reals allows with infinite entries too; for the perceptron as it stands.  No step uses
  that the inputs are finite.  `KernelValue` carries the buffer contents through the program, boundary by boundary, to
  the reference's result stage of the argument arrays; `KernelRun` is the program's run with the result array named.

  The three frames are the generated ones (the reference's is its generated run with the result dropped); the
  idealization rewrote no operation, so its statement is `True`.
-/
import proofs.«115881_j16552803959009_1_alg».proof.Defs
import proofs.«115881_j16552803959009_1_alg».proof.Proof.Gen.Kernel
import proofs.«115881_j16552803959009_1_alg».proof.Proof.Gen.Kernel.Skeleton
import proofs.«115881_j16552803959009_1_alg».proof.Proof.Gen.Kernel.Launch
import proofs.«115881_j16552803959009_1_alg».proof.Proof.Gen.Kernel.Points
import proofs.«115881_j16552803959009_1_alg».proof.Proof.Gen.Kernel.Frame
import proofs.«115881_j16552803959009_1_alg».proof.Proof.Gen.KernelIdeal
import proofs.«115881_j16552803959009_1_alg».proof.Proof.Gen.KernelIdeal.Skeleton
import proofs.«115881_j16552803959009_1_alg».proof.Proof.Gen.KernelIdeal.Launch
import proofs.«115881_j16552803959009_1_alg».proof.Proof.Gen.KernelIdeal.Points
import proofs.«115881_j16552803959009_1_alg».proof.Proof.Gen.KernelIdeal.Frame
import proofs.«115881_j16552803959009_1_alg».proof.Proof.Gen.ReferenceIdeal
import proofs.«115881_j16552803959009_1_alg».proof.Proof.Gen.ReferenceIdeal.Run
import proofs.«115881_j16552803959009_1_alg».proof.Proof.Gen.ReferenceIdeal.Read
import proofs.«115881_j16552803959009_1_alg».proof.Proof.Gen.Pre_finite_inputs
import proofs.«115881_j16552803959009_1_alg».proof.Proof.KernelRun
import proofs.«115881_j16552803959009_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the reference's result stage of the argument arrays: the kernel's by
    `KernelValue.result`, the reference's by its own run, from memories that agree on the arguments. -/
theorem algebraic : Cert.algebraic_KernelIdeal_ReferenceIdeal := by
  intro m ρ m' ρ' _ hagree
  refine ⟨fun c => Cert.KernelIdeal.Gen.W6 m ρ c (Proc.devRef .tc Cert.KernelIdeal.main_v56),
    Cert.KernelIdeal.ValueRun.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.Read.val_main_v79_eq, h0, h1, h2, h3, h4, h5, h6, h7, h8, h9, h10, h11]
  exact (Cert.KernelIdeal.KernelValue.result m ρ c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
